-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x8 : Shape := ⟨2, ![1048576, 8]⟩
abbrev S8x20 : Shape := ⟨2, ![8, 20]⟩
abbrev S20 : Shape := ⟨1, ![20]⟩
abbrev S20x18 : Shape := ⟨2, ![20, 18]⟩
abbrev S18 : Shape := ⟨1, ![18]⟩
abbrev S18x16 : Shape := ⟨2, ![18, 16]⟩
abbrev S16 : Shape := ⟨1, ![16]⟩
abbrev S16x14 : Shape := ⟨2, ![16, 14]⟩
abbrev S14 : Shape := ⟨1, ![14]⟩
abbrev S14x12 : Shape := ⟨2, ![14, 12]⟩
abbrev S12 : Shape := ⟨1, ![12]⟩
abbrev S12x10 : Shape := ⟨2, ![12, 10]⟩
abbrev S10 : Shape := ⟨1, ![10]⟩
abbrev S10x8 : Shape := ⟨2, ![10, 8]⟩
abbrev S8 : Shape := ⟨1, ![8]⟩
abbrev S8x6 : Shape := ⟨2, ![8, 6]⟩
abbrev S6 : Shape := ⟨1, ![6]⟩
abbrev S6x4 : Shape := ⟨2, ![6, 4]⟩
abbrev S4 : Shape := ⟨1, ![4]⟩
abbrev S4x1 : Shape := ⟨2, ![4, 1]⟩
abbrev S1 : Shape := ⟨1, ![1]⟩
abbrev S_ : Shape := ⟨0, ![]⟩

class Facts : Prop where
  bcast_S_S1048576x8 : S_.BroadcastsInDim S1048576x8 (![] : Fin 0 → Fin S1048576x8.rank)
  reducesTo_S1048576x8_S_d0_1 : S1048576x8.ReducesTo [0, 1] S_
  h_S_ : 0 < S_.numel
  bcast_S_S8x20 : S_.BroadcastsInDim S8x20 (![] : Fin 0 → Fin S8x20.rank)
  reducesTo_S8x20_S_d0_1 : S8x20.ReducesTo [0, 1] S_
  bcast_S_S20 : S_.BroadcastsInDim S20 (![] : Fin 0 → Fin S20.rank)
  reducesTo_S20_S_d0 : S20.ReducesTo [0] S_
  bcast_S_S20x18 : S_.BroadcastsInDim S20x18 (![] : Fin 0 → Fin S20x18.rank)
  reducesTo_S20x18_S_d0_1 : S20x18.ReducesTo [0, 1] S_
  bcast_S_S18 : S_.BroadcastsInDim S18 (![] : Fin 0 → Fin S18.rank)
  reducesTo_S18_S_d0 : S18.ReducesTo [0] S_
  bcast_S_S18x16 : S_.BroadcastsInDim S18x16 (![] : Fin 0 → Fin S18x16.rank)
  reducesTo_S18x16_S_d0_1 : S18x16.ReducesTo [0, 1] S_
  bcast_S_S16 : S_.BroadcastsInDim S16 (![] : Fin 0 → Fin S16.rank)
  reducesTo_S16_S_d0 : S16.ReducesTo [0] S_
  bcast_S_S16x14 : S_.BroadcastsInDim S16x14 (![] : Fin 0 → Fin S16x14.rank)
  reducesTo_S16x14_S_d0_1 : S16x14.ReducesTo [0, 1] S_
  bcast_S_S14 : S_.BroadcastsInDim S14 (![] : Fin 0 → Fin S14.rank)
  reducesTo_S14_S_d0 : S14.ReducesTo [0] S_
  bcast_S_S14x12 : S_.BroadcastsInDim S14x12 (![] : Fin 0 → Fin S14x12.rank)
  reducesTo_S14x12_S_d0_1 : S14x12.ReducesTo [0, 1] S_
  bcast_S_S12 : S_.BroadcastsInDim S12 (![] : Fin 0 → Fin S12.rank)
  reducesTo_S12_S_d0 : S12.ReducesTo [0] S_
  bcast_S_S12x10 : S_.BroadcastsInDim S12x10 (![] : Fin 0 → Fin S12x10.rank)
  reducesTo_S12x10_S_d0_1 : S12x10.ReducesTo [0, 1] S_
  bcast_S_S10 : S_.BroadcastsInDim S10 (![] : Fin 0 → Fin S10.rank)
  reducesTo_S10_S_d0 : S10.ReducesTo [0] S_
  bcast_S_S10x8 : S_.BroadcastsInDim S10x8 (![] : Fin 0 → Fin S10x8.rank)
  reducesTo_S10x8_S_d0_1 : S10x8.ReducesTo [0, 1] S_
  bcast_S_S8 : S_.BroadcastsInDim S8 (![] : Fin 0 → Fin S8.rank)
  reducesTo_S8_S_d0 : S8.ReducesTo [0] S_
  bcast_S_S8x6 : S_.BroadcastsInDim S8x6 (![] : Fin 0 → Fin S8x6.rank)
  reducesTo_S8x6_S_d0_1 : S8x6.ReducesTo [0, 1] S_
  bcast_S_S6 : S_.BroadcastsInDim S6 (![] : Fin 0 → Fin S6.rank)
  reducesTo_S6_S_d0 : S6.ReducesTo [0] S_
  bcast_S_S6x4 : S_.BroadcastsInDim S6x4 (![] : Fin 0 → Fin S6x4.rank)
  reducesTo_S6x4_S_d0_1 : S6x4.ReducesTo [0, 1] S_
  bcast_S_S4 : S_.BroadcastsInDim S4 (![] : Fin 0 → Fin S4.rank)
  reducesTo_S4_S_d0 : S4.ReducesTo [0] S_
  bcast_S_S4x1 : S_.BroadcastsInDim S4x1 (![] : Fin 0 → Fin S4x1.rank)
  reducesTo_S4x1_S_d0_1 : S4x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_v98 : IVec S_ 1) (main_v101 : IVec S1 1) (main_c_39 : IVec S_ 1) : IVec S_ 1 :=
  let main_v102 : IVec S_ 1 := (fun x v => Host.reduce IntOp.andi x v reducesTo_S1_S_d0 h_S_) main_v101 main_c_39
  let main_v103 : IVec S_ 1 := andi main_v98 main_v102
  main_v103

def fn_part5 {F : FTy → Type} [FloatOps F] (main_arg18 : FVec F S4 .f32) (main_arg19 : FVec F S4x1 .f32) (main_arg20 : FVec F S1 .f32) (main_v83 : IVec S_ 1) (main_v84 : FVec F S6x4 .f32) (main_cst_32 : FVec F S_ .f32) : IVec S_ 1 :=
  let main_v85 : FVec F S6x4 .f32 := broadcastInDim S6x4 ![] bcast_S_S6x4 main_cst_32
  let main_v86 : IVec S6x4 1 := cmpf .olt main_v84 main_v85
  let main_c_33 : IVec S_ 1 := constantI S_ 1 1#1
  let main_v87 : IVec S_ 1 := (fun x v => Host.reduce IntOp.andi x v reducesTo_S6x4_S_d0_1 h_S_) main_v86 main_c_33
  let main_v88 : IVec S_ 1 := andi main_v83 main_v87
  let main_v89 : FVec F S4 .f32 := Host.absf main_arg18
  let main_cst_34 : FVec F S_ .f32 := constant S_ .f32 0x7F800000#32
  let main_v90 : FVec F S4 .f32 := broadcastInDim S4 ![] bcast_S_S4 main_cst_34
  let main_v91 : IVec S4 1 := cmpf .olt main_v89 main_v90
  let main_c_35 : IVec S_ 1 := constantI S_ 1 1#1
  let main_v92 : IVec S_ 1 := (fun x v => Host.reduce IntOp.andi x v reducesTo_S4_S_d0 h_S_) main_v91 main_c_35
  let main_v93 : IVec S_ 1 := andi main_v88 main_v92
  let main_v94 : FVec F S4x1 .f32 := Host.absf main_arg19
  let main_cst_36 : FVec F S_ .f32 := constant S_ .f32 0x7F800000#32
  let main_v95 : FVec F S4x1 .f32 := broadcastInDim S4x1 ![] bcast_S_S4x1 main_cst_36
  let main_v96 : IVec S4x1 1 := cmpf .olt main_v94 main_v95
  let main_c_37 : IVec S_ 1 := constantI S_ 1 1#1
  let main_v97 : IVec S_ 1 := (fun x v => Host.reduce IntOp.andi x v reducesTo_S4x1_S_d0_1 h_S_) main_v96 main_c_37
  let main_v98 : IVec S_ 1 := andi main_v93 main_v97
  let main_v99 : FVec F S1 .f32 := Host.absf main_arg20
  let main_cst_38 : FVec F S_ .f32 := constant S_ .f32 0x7F800000#32
  let main_v100 : FVec F S1 .f32 := broadcastInDim S1 ![] bcast_S_S1 main_cst_38
  let main_v101 : IVec S1 1 := cmpf .olt main_v99 main_v100
  let main_c_39 : IVec S_ 1 := constantI S_ 1 1#1
  fn_part6 (F := F) main_v98 main_v101 main_c_39

def fn_part4 {F : FTy → Type} [FloatOps F] (main_arg14 : FVec F S8 .f32) (main_arg15 : FVec F S8x6 .f32) (main_arg16 : FVec F S6 .f32) (main_arg17 : FVec F S6x4 .f32) (main_arg18 : FVec F S4 .f32) (main_arg19 : FVec F S4x1 .f32) (main_arg20 : FVec F S1 .f32) (main_v63 : IVec S_ 1) (main_v67 : IVec S_ 1) : IVec S_ 1 :=
  let main_v68 : IVec S_ 1 := andi main_v63 main_v67
  let main_v69 : FVec F S8 .f32 := Host.absf main_arg14
  let main_cst_26 : FVec F S_ .f32 := constant S_ .f32 0x7F800000#32
  let main_v70 : FVec F S8 .f32 := broadcastInDim S8 ![] bcast_S_S8 main_cst_26
  let main_v71 : IVec S8 1 := cmpf .olt main_v69 main_v70
  let main_c_27 : IVec S_ 1 := constantI S_ 1 1#1
  let main_v72 : IVec S_ 1 := (fun x v => Host.reduce IntOp.andi x v reducesTo_S8_S_d0 h_S_) main_v71 main_c_27
  let main_v73 : IVec S_ 1 := andi main_v68 main_v72
  let main_v74 : FVec F S8x6 .f32 := Host.absf main_arg15
  let main_cst_28 : FVec F S_ .f32 := constant S_ .f32 0x7F800000#32
  let main_v75 : FVec F S8x6 .f32 := broadcastInDim S8x6 ![] bcast_S_S8x6 main_cst_28
  let main_v76 : IVec S8x6 1 := cmpf .olt main_v74 main_v75
  let main_c_29 : IVec S_ 1 := constantI S_ 1 1#1
  let main_v77 : IVec S_ 1 := (fun x v => Host.reduce IntOp.andi x v reducesTo_S8x6_S_d0_1 h_S_) main_v76 main_c_29
  let main_v78 : IVec S_ 1 := andi main_v73 main_v77
  let main_v79 : FVec F S6 .f32 := Host.absf main_arg16
  let main_cst_30 : FVec F S_ .f32 := constant S_ .f32 0x7F800000#32
  let main_v80 : FVec F S6 .f32 := broadcastInDim S6 ![] bcast_S_S6 main_cst_30
  let main_v81 : IVec S6 1 := cmpf .olt main_v79 main_v80
  let main_c_31 : IVec S_ 1 := constantI S_ 1 1#1
  let main_v82 : IVec S_ 1 := (fun x v => Host.reduce IntOp.andi x v reducesTo_S6_S_d0 h_S_) main_v81 main_c_31
  let main_v83 : IVec S_ 1 := andi main_v78 main_v82
  let main_v84 : FVec F S6x4 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S12x10 .f32) (main_arg12 : FVec F S10 .f32) (main_arg13 : FVec F S10x8 .f32) (main_arg14 : FVec F S8 .f32) (main_arg15 : FVec F S8x6 .f32) (main_arg16 : FVec F S6 .f32) (main_arg17 : FVec F S6x4 .f32) (main_arg18 : FVec F S4 .f32) (main_arg19 : FVec F S4x1 .f32) (main_arg20 : FVec F S1 .f32) (main_v48 : IVec S_ 1) (main_v49 : FVec F S12 .f32) (main_v50 : FVec F S12 .f32) : IVec S_ 1 :=
  let main_v51 : IVec S12 1 := cmpf .olt main_v49 main_v50
  let main_c_19 : IVec S_ 1 := constantI S_ 1 1#1
  let main_v52 : IVec S_ 1 := (fun x v => Host.reduce IntOp.andi x v reducesTo_S12_S_d0 h_S_) main_v51 main_c_19
  let main_v53 : IVec S_ 1 := andi main_v48 main_v52
  let main_v54 : FVec F S12x10 .f32 := Host.absf main_arg11
  let main_cst_20 : FVec F S_ .f32 := constant S_ .f32 0x7F800000#32
  let main_v55 : FVec F S12x10 .f32 := broadcastInDim S12x10 ![] bcast_S_S12x10 main_cst_20
  let main_v56 : IVec S12x10 1 := cmpf .olt main_v54 main_v55
  let main_c_21 : IVec S_ 1 := constantI S_ 1 1#1
  let main_v57 : IVec S_ 1 := (fun x v => Host.reduce IntOp.andi x v reducesTo_S12x10_S_d0_1 h_S_) main_v56 main_c_21
  let main_v58 : IVec S_ 1 := andi main_v53 main_v57
  let main_v59 : FVec F S10 .f32 := Host.absf main_arg12
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  let main_v64 : FVec F S10x8 .f32 := Host.absf main_arg13
  let main_cst_24 : FVec F S_ .f32 := constant S_ .f32 0x7F800000#32
  let main_v65 : FVec F S10x8 .f32 := broadcastInDim S10x8 ![] bcast_S_S10x8 main_cst_24
  let main_v66 : IVec S10x8 1 := cmpf .olt main_v64 main_v65
  let main_c_25 : IVec S_ 1 := constantI S_ 1 1#1
  let main_v67 : IVec S_ 1 := (fun x v => Host.reduce IntOp.andi x v reducesTo_S10x8_S_d0_1 h_S_) main_v66 main_c_25
  fn_part4 (F := F) main_arg14 main_arg15 main_arg16 main_arg17 main_arg18 main_arg19 main_arg20 main_v63 main_v67

def fn_part2 {F : FTy → Type} [FloatOps F] (main_arg7 : FVec F S16x14 .f32) (main_arg8 : FVec F S14 .f32) (main_arg9 : FVec F S14x12 .f32) (main_arg10 : FVec F S12 .f32) (main_arg11 : FVec F S12x10 .f32) (main_arg12 : FVec F S10 .f32) (main_arg13 : FVec F S10x8 .f32) (main_arg14 : FVec F S8 .f32) (main_arg15 : FVec F S8x6 .f32) (main_arg16 : FVec F S6 .f32) (main_arg17 : FVec F S6x4 .f32) (main_arg18 : FVec F S4 .f32) (main_arg19 : FVec F S4x1 .f32) (main_arg20 : FVec F S1 .f32) (main_v33 : IVec S_ 1) : IVec S_ 1 :=
  let main_v34 : FVec F S16x14 .f32 := Host.absf main_arg7
  let main_cst_12 : FVec F S_ .f32 := constant S_ .f32 0x7F800000#32
  let main_v35 : FVec F S16x14 .f32 := broadcastInDim S16x14 ![] bcast_S_S16x14 main_cst_12
  let main_v36 : IVec S16x14 1 := cmpf .olt main_v34 main_v35
  let main_c_13 : IVec S_ 1 := constantI S_ 1 1#1
  let main_v37 : IVec S_ 1 := (fun x v => Host.reduce IntOp.andi x v reducesTo_S16x14_S_d0_1 h_S_) main_v36 main_c_13
  let main_v38 : IVec S_ 1 := andi main_v33 main_v37
  let main_v39 : FVec F S14 .f32 := Host.absf main_arg8
  let main_cst_14 : FVec F S_ .f32 := constant S_ .f32 0x7F800000#32
  let main_v40 : FVec F S14 .f32 := broadcastInDim S14 ![] bcast_S_S14 main_cst_14
  let main_v41 : IVec S14 1 := cmpf .olt main_v39 main_v40
  let main_c_15 : IVec S_ 1 := constantI S_ 1 1#1
  let main_v42 : IVec S_ 1 := (fun x v => Host.reduce IntOp.andi x v reducesTo_S14_S_d0 h_S_) main_v41 main_c_15
  let main_v43 : IVec S_ 1 := andi main_v38 main_v42
  let main_v44 : FVec F S14x12 .f32 := Host.absf main_arg9
  let main_cst_16 : FVec F S_ .f32 := constant S_ .f32 0x7F800000#32
  let main_v45 : FVec F S14x12 .f32 := broadcastInDim S14x12 ![] bcast_S_S14x12 main_cst_16
  let main_v46 : IVec S14x12 1 := cmpf .olt main_v44 main_v45
  let main_c_17 : IVec S_ 1 := constantI S_ 1 1#1
  let main_v47 : IVec S_ 1 := (fun x v => Host.reduce IntOp.andi x v reducesTo_S14x12_S_d0_1 h_S_) main_v46 main_c_17
  let main_v48 : IVec S_ 1 := andi main_v43 main_v47
  let main_v49 : FVec F S12 .f32 := Host.absf main_arg10
  let main_cst_18 : FVec F S_ .f32 := constant S_ .f32 0x7F800000#32
  let main_v50 : FVec F S12 .f32 := broadcastInDim S12 ![] bcast_S_S12 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S18 .f32) (main_arg5 : FVec F S18x16 .f32) (main_arg6 : FVec F S16 .f32) (main_arg7 : FVec F S16x14 .f32) (main_arg8 : FVec F S14 .f32) (main_arg9 : FVec F S14x12 .f32) (main_arg10 : FVec F S12 .f32) (main_arg11 : FVec F S12x10 .f32) (main_arg12 : FVec F S10 .f32) (main_arg13 : FVec F S10x8 .f32) (main_arg14 : FVec F S8 .f32) (main_arg15 : FVec F S8x6 .f32) (main_arg16 : FVec F S6 .f32) (main_arg17 : FVec F S6x4 .f32) (main_arg18 : FVec F S4 .f32) (main_arg19 : FVec F S4x1 .f32) (main_arg20 : FVec F S1 .f32) (main_v13 : IVec S_ 1) (main_v16 : IVec S20x18 1) : IVec S_ 1 :=
  let main_c_5 : IVec S_ 1 := constantI S_ 1 1#1
  let main_v17 : IVec S_ 1 := (fun x v => Host.reduce IntOp.andi x v reducesTo_S20x18_S_d0_1 h_S_) main_v16 main_c_5
  let main_v18 : IVec S_ 1 := andi main_v13 main_v17
  let main_v19 : FVec F S18 .f32 := Host.absf main_arg4
  let main_cst_6 : FVec F S_ .f32 := constant S_ .f32 0x7F800000#32
  let main_v20 : FVec F S18 .f32 := broadcastInDim S18 ![] bcast_S_S18 main_cst_6
  let main_v21 : IVec S18 1 := cmpf .olt main_v19 main_v20
  let main_c_7 : IVec S_ 1 := constantI S_ 1 1#1
  let main_v22 : IVec S_ 1 := (fun x v => Host.reduce IntOp.andi x v reducesTo_S18_S_d0 h_S_) main_v21 main_c_7
  let main_v23 : IVec S_ 1 := andi main_v18 main_v22
  let main_v24 : FVec F S18x16 .f32 := Host.absf main_arg5
  let main_cst_8 : FVec F S_ .f32 := constant S_ .f32 0x7F800000#32
  let main_v25 : FVec F S18x16 .f32 := broadcastInDim S18x16 ![] bcast_S_S18x16 main_cst_8
  let main_v26 : IVec S18x16 1 := cmpf .olt main_v24 main_v25
  let main_c_9 : IVec S_ 1 := constantI S_ 1 1#1
  let main_v27 : IVec S_ 1 := (fun x v => Host.reduce IntOp.andi x v reducesTo_S18x16_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S1048576x8 .f32) (main_arg1 : FVec F S8x20 .f32) (main_arg2 : FVec F S20 .f32) (main_arg3 : FVec F S20x18 .f32) (main_arg4 : FVec F S18 .f32) (main_arg5 : FVec F S18x16 .f32) (main_arg6 : FVec F S16 .f32) (main_arg7 : FVec F S16x14 .f32) (main_arg8 : FVec F S14 .f32) (main_arg9 : FVec F S14x12 .f32) (main_arg10 : FVec F S12 .f32) (main_arg11 : FVec F S12x10 .f32) (main_arg12 : FVec F S10 .f32) (main_arg13 : FVec F S10x8 .f32) (main_arg14 : FVec F S8 .f32) (main_arg15 : FVec F S8x6 .f32) (main_arg16 : FVec F S6 .f32) (main_arg17 : FVec F S6x4 .f32) (main_arg18 : FVec F S4 .f32) (main_arg19 : FVec F S4x1 .f32) (main_arg20 : FVec F S1 .f32) : IVec S_ 1 :=
  let main_v0 : FVec F S1048576x8 .f32 := Host.absf main_arg0
  let main_cst : FVec F S_ .f32 := constant S_ .f32 0x7F800000#32
  let main_v1 : FVec F S1048576x8 .f32 := broadcastInDim S1048576x8 ![] bcast_S_S1048576x8 main_cst
  let main_v2 : IVec S1048576x8 1 := cmpf .olt main_v0 main_v1
  let main_c : IVec S_ 1 := constantI S_ 1 1#1
  let main_v3 : IVec S_ 1 := (fun x v => Host.reduce IntOp.andi x v reducesTo_S1048576x8_S_d0_1 h_S_) main_v2 main_c
  let main_v4 : FVec F S8x20 .f32 := Host.absf main_arg1
  let main_cst_0 : FVec F S_ .f32 := constant S_ .f32 0x7F800000#32
  let main_v5 : FVec F S8x20 .f32 := broadcastInDim S8x20 ![] bcast_S_S8x20 main_cst_0
  let main_v6 : IVec S8x20 1 := cmpf .olt main_v4 main_v5
  let main_c_1 : IVec S_ 1 := constantI S_ 1 1#1
  let main_v7 : IVec S_ 1 := (fun x v => Host.reduce IntOp.andi x v reducesTo_S8x20_S_d0_1 h_S_) main_v6 main_c_1
  let main_v8 : IVec S_ 1 := andi main_v3 main_v7
  let main_v9 : FVec F S20 .f32 := Host.absf main_arg2
  let main_cst_2 : FVec F S_ .f32 := constant S_ .f32 0x7F800000#32
  let main_v10 : FVec F S20 .f32 := broadcastInDim S20 ![] bcast_S_S20 main_cst_2
  let main_v11 : IVec S20 1 := cmpf .olt main_v9 main_v10
  let main_c_3 : IVec S_ 1 := constantI S_ 1 1#1
  let main_v12 : IVec S_ 1 := (fun x v => Host.reduce IntOp.andi x v reducesTo_S20_S_d0 h_S_) main_v11 main_c_3
  let main_v13 : IVec S_ 1 := andi main_v8 main_v12
  let main_v14 : FVec F S20x18 .f32 := Host.absf main_arg3
  let main_cst_4 : FVec F S_ .f32 := constant S_ .f32 0x7F800000#32
  let main_v15 : FVec F S20x18 .f32 := broadcastInDim S20x18 ![] bcast_S_S20x18 main_cst_4
  let main_v16 : IVec S20x18 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S1048576x8 : Shape := ⟨2, ![1048576, 8]⟩
abbrev S8x20 : Shape := ⟨2, ![8, 20]⟩
abbrev S20 : Shape := ⟨1, ![20]⟩
abbrev S20x18 : Shape := ⟨2, ![20, 18]⟩
abbrev S18 : Shape := ⟨1, ![18]⟩
abbrev S18x16 : Shape := ⟨2, ![18, 16]⟩
abbrev S16 : Shape := ⟨1, ![16]⟩
abbrev S16x14 : Shape := ⟨2, ![16, 14]⟩
abbrev S14 : Shape := ⟨1, ![14]⟩
abbrev S14x12 : Shape := ⟨2, ![14, 12]⟩
abbrev S12 : Shape := ⟨1, ![12]⟩
abbrev S12x10 : Shape := ⟨2, ![12, 10]⟩
abbrev S10 : Shape := ⟨1, ![10]⟩
abbrev S10x8 : Shape := ⟨2, ![10, 8]⟩
abbrev S8 : Shape := ⟨1, ![8]⟩
abbrev S8x6 : Shape := ⟨2, ![8, 6]⟩
abbrev S6 : Shape := ⟨1, ![6]⟩
abbrev S6x4 : Shape := ⟨2, ![6, 4]⟩
abbrev S4 : Shape := ⟨1, ![4]⟩
abbrev S4x1 : Shape := ⟨2, ![4, 1]⟩
abbrev S1 : Shape := ⟨1, ![1]⟩
abbrev S1x20 : Shape := ⟨2, ![1, 20]⟩
abbrev S1x18 : Shape := ⟨2, ![1, 18]⟩
abbrev S1x16 : Shape := ⟨2, ![1, 16]⟩
abbrev S1x14 : Shape := ⟨2, ![1, 14]⟩
abbrev S1x12 : Shape := ⟨2, ![1, 12]⟩
abbrev S1x10 : Shape := ⟨2, ![1, 10]⟩
abbrev S1x8 : Shape := ⟨2, ![1, 8]⟩
abbrev S1x6 : Shape := ⟨2, ![1, 6]⟩
abbrev S1x4 : Shape := ⟨2, ![1, 4]⟩
abbrev S1x1 : Shape := ⟨2, ![1, 1]⟩
abbrev S1048576x1 : Shape := ⟨2, ![1048576, 1]⟩
abbrev S8192x8 : Shape := ⟨2, ![8192, 8]⟩
abbrev S8192x1 : Shape := ⟨2, ![8192, 1]⟩
abbrev S8192x20 : Shape := ⟨2, ![8192, 20]⟩
abbrev S8192x18 : Shape := ⟨2, ![8192, 18]⟩
abbrev S8192x16 : Shape := ⟨2, ![8192, 16]⟩
abbrev S8192x14 : Shape := ⟨2, ![8192, 14]⟩
abbrev S8192x12 : Shape := ⟨2, ![8192, 12]⟩
abbrev S8192x10 : Shape := ⟨2, ![8192, 10]⟩
abbrev S8192x6 : Shape := ⟨2, ![8192, 6]⟩
abbrev S8192x4 : Shape := ⟨2, ![8192, 4]⟩

abbrev nBuf : Space → Nat
  | .hbm => 32
  | .vmem => 24
  | .smem => 0
  | _ => 0

abbrev bufTy : (tb : Table) → Fin (tcTables nBuf tb) → BufTy
  | .hbm, ⟨0, _⟩ => ⟨S1048576x8, .f32⟩
  | .hbm, ⟨1, _⟩ => ⟨S8x20, .f32⟩
  | .hbm, ⟨2, _⟩ => ⟨S20, .f32⟩
  | .hbm, ⟨3, _⟩ => ⟨S20x18, .f32⟩
  | .hbm, ⟨4, _⟩ => ⟨S18, .f32⟩
  | .hbm, ⟨5, _⟩ => ⟨S18x16, .f32⟩
  | .hbm, ⟨6, _⟩ => ⟨S16, .f32⟩
  | .hbm, ⟨7, _⟩ => ⟨S16x14, .f32⟩
  | .hbm, ⟨8, _⟩ => ⟨S14, .f32⟩
  | .hbm, ⟨9, _⟩ => ⟨S14x12, .f32⟩
  | .hbm, ⟨10, _⟩ => ⟨S12, .f32⟩
  | .hbm, ⟨11, _⟩ => ⟨S12x10, .f32⟩
  | .hbm, ⟨12, _⟩ => ⟨S10, .f32⟩
  | .hbm, ⟨13, _⟩ => ⟨S10x8, .f32⟩
  | .hbm, ⟨14, _⟩ => ⟨S8, .f32⟩
  | .hbm, ⟨15, _⟩ => ⟨S8x6, .f32⟩
  | .hbm, ⟨16, _⟩ => ⟨S6, .f32⟩
  | .hbm, ⟨17, _⟩ => ⟨S6x4, .f32⟩
  | .hbm, ⟨18, _⟩ => ⟨S4, .f32⟩
  | .hbm, ⟨19, _⟩ => ⟨S4x1, .f32⟩
  | .hbm, ⟨20, _⟩ => ⟨S1, .f32⟩
  | .hbm, ⟨21, _⟩ => ⟨S1x20, .f32⟩
  | .hbm, ⟨22, _⟩ => ⟨S1x18, .f32⟩
  | .hbm, ⟨23, _⟩ => ⟨S1x16, .f32⟩
  | .hbm, ⟨24, _⟩ => ⟨S1x14, .f32⟩
  | .hbm, ⟨25, _⟩ => ⟨S1x12, .f32⟩
  | .hbm, ⟨26, _⟩ => ⟨S1x10, .f32⟩
  | .hbm, ⟨27, _⟩ => ⟨S1x8, .f32⟩
  | .hbm, ⟨28, _⟩ => ⟨S1x6, .f32⟩
  | .hbm, ⟨29, _⟩ => ⟨S1x4, .f32⟩
  | .hbm, ⟨30, _⟩ => ⟨S1x1, .f32⟩
  | .hbm, ⟨31, _⟩ => ⟨S1048576x1, .f32⟩
  | .local _ .vmem, ⟨0, _⟩ => ⟨S8192x8, .f32⟩
  | .local _ .vmem, ⟨1, _⟩ => ⟨S8192x8, .f32⟩
  | .local _ .vmem, ⟨2, _⟩ => ⟨S8x20, .f32⟩
  | .local _ .vmem, ⟨3, _⟩ => ⟨S1x20, .f32⟩
  | .local _ .vmem, ⟨4, _⟩ => ⟨S20x18, .f32⟩
  | .local _ .vmem, ⟨5, _⟩ => ⟨S1x18, .f32⟩
  | .local _ .vmem, ⟨6, _⟩ => ⟨S18x16, .f32⟩
  | .local _ .vmem, ⟨7, _⟩ => ⟨S1x16, .f32⟩
  | .local _ .vmem, ⟨8, _⟩ => ⟨S16x14, .f32⟩
  | .local _ .vmem, ⟨9, _⟩ => ⟨S1x14, .f32⟩
  | .local _ .vmem, ⟨10, _⟩ => ⟨S14x12, .f32⟩
  | .local _ .vmem, ⟨11, _⟩ => ⟨S1x12, .f32⟩
  | .local _ .vmem, ⟨12, _⟩ => ⟨S12x10, .f32⟩
  | .local _ .vmem, ⟨13, _⟩ => ⟨S1x10, .f32⟩
  | .local _ .vmem, ⟨14, _⟩ => ⟨S10x8, .f32⟩
  | .local _ .vmem, ⟨15, _⟩ => ⟨S1x8, .f32⟩
  | .local _ .vmem, ⟨16, _⟩ => ⟨S8x6, .f32⟩
  | .local _ .vmem, ⟨17, _⟩ => ⟨S1x6, .f32⟩
  | .local _ .vmem, ⟨18, _⟩ => ⟨S6x4, .f32⟩
  | .local _ .vmem, ⟨19, _⟩ => ⟨S1x4, .f32⟩
  | .local _ .vmem, ⟨20, _⟩ => ⟨S4x1, .f32⟩
  | .local _ .vmem, ⟨21, _⟩ => ⟨S1x1, .f32⟩
  | .local _ .vmem, ⟨22, _⟩ => ⟨S8192x1, .f32⟩
  | .local _ .vmem, ⟨23, _⟩ => ⟨S8192x1, .f32⟩
  | _, _ => ⟨S1048576x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg21_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem21_1 : DmaSem sig := 23

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x20 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S20x18 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x18 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S18x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x14 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x14 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S14x12 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x12 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S12x10 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x10 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S10x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x6 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x6 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S6x4 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x4 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S4x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S8192x1 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

class Facts₀ : Prop where
  shapeCasts_S20_S1x20 : S20.ShapeCasts S1x20
  shapeCasts_S18_S1x18 : S18.ShapeCasts S1x18
  shapeCasts_S16_S1x16 : S16.ShapeCasts S1x16
  shapeCasts_S14_S1x14 : S14.ShapeCasts S1x14
  shapeCasts_S12_S1x12 : S12.ShapeCasts S1x12
  shapeCasts_S10_S1x10 : S10.ShapeCasts S1x10
  shapeCasts_S8_S1x8 : S8.ShapeCasts S1x8
  shapeCasts_S6_S1x6 : S6.ShapeCasts S1x6
  shapeCasts_S4_S1x4 : S4.ShapeCasts S1x4
  shapeCasts_S1_S1x1 : S1.ShapeCasts S1x1
  inb_S8192x8_S8192x8_0_0 : ∀ a, (![0, 0] : Fin 2 → Nat) a + S8192x8.size a ≤ S8192x8.size a
  h_S8192x8 : 0 < S8192x8.numel
  bitsLt_bf16_f32 : FTy.bits .bf16 < FTy.bits .f32
  inb_S8x20_S8x20_0_0 : ∀ a, (![0, 0] : Fin 2 → Nat) a + S8x20.size a ≤ S8x20.size a
  h_S8x20 : 0 < S8x20.numel
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S8192x20 : S1x20.Broadcasts S8192x20
  inb_S20x18_S20x18_0_0 : ∀ a, (![0, 0] : Fin 2 → Nat) a + S20x18.size a ≤ S20x18.size a
  h_S20x18 : 0 < S20x18.numel
  inb_S1x18_S1x18_0_0 : ∀ a, (![0, 0] : Fin 2 → Nat) a + S1x18.size a ≤ S1x18.size a
  h_S1x18 : 0 < S1x18.numel
  shapeCasts_S1x18_S1x18 : S1x18.ShapeCasts S1x18
  broadcasts_S1x18_S8192x18 : S1x18.Broadcasts S8192x18
  inb_S18x16_S18x16_0_0 : ∀ a, (![0, 0] : Fin 2 → Nat) a + S18x16.size a ≤ S18x16.size a
  h_S18x16 : 0 < S18x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S8192x16 : S1x16.Broadcasts S8192x16
  inb_S16x14_S16x14_0_0 : ∀ a, (![0, 0] : Fin 2 → Nat) a + S16x14.size a ≤ S16x14.size a
  h_S16x14 : 0 < S16x14.numel
  inb_S1x14_S1x14_0_0 : ∀ a, (![0, 0] : Fin 2 → Nat) a + S1x14.size a ≤ S1x14.size a
  h_S1x14 : 0 < S1x14.numel
  shapeCasts_S1x14_S1x14 : S1x14.ShapeCasts S1x14
  broadcasts_S1x14_S8192x14 : S1x14.Broadcasts S8192x14
  inb_S14x12_S14x12_0_0 : ∀ a, (![0, 0] : Fin 2 → Nat) a + S14x12.size a ≤ S14x12.size a
  h_S14x12 : 0 < S14x12.numel
  inb_S1x12_S1x12_0_0 : ∀ a, (![0, 0] : Fin 2 → Nat) a + S1x12.size a ≤ S1x12.size a
  h_S1x12 : 0 < S1x12.numel
  shapeCasts_S1x12_S1x12 : S1x12.ShapeCasts S1x12
  broadcasts_S1x12_S8192x12 : S1x12.Broadcasts S8192x12
  inb_S12x10_S12x10_0_0 : ∀ a, (![0, 0] : Fin 2 → Nat) a + S12x10.size a ≤ S12x10.size a
  h_S12x10 : 0 < S12x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S8192x10 : S1x10.Broadcasts S8192x10
  inb_S10x8_S10x8_0_0 : ∀ a, (![0, 0] : Fin 2 → Nat) a + S10x8.size a ≤ S10x8.size a
  h_S10x8 : 0 < S10x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S8192x8 : S1x8.Broadcasts S8192x8
  inb_S8x6_S8x6_0_0 : ∀ a, (![0, 0] : Fin 2 → Nat) a + S8x6.size a ≤ S8x6.size a
  h_S8x6 : 0 < S8x6.numel
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S8192x6 : S1x6.Broadcasts S8192x6
  inb_S6x4_S6x4_0_0 : ∀ a, (![0, 0] : Fin 2 → Nat) a + S6x4.size a ≤ S6x4.size a
  h_S6x4 : 0 < S6x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S8192x4 : S1x4.Broadcasts S8192x4
  inb_S4x1_S4x1_0_0 : ∀ a, (![0, 0] : Fin 2 → Nat) a + S4x1.size a ≤ S4x1.size a
  h_S4x1 : 0 < S4x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8192x1 : S1x1.Broadcasts S8192x1
  inb_S8192x1_S8192x1_0_0 : ∀ a, (![0, 0] : Fin 2 → Nat) a + S8192x1.size a ≤ S8192x1.size a
  h_S8192x1 : 0 < S8192x1.numel
  dot_S8192x8_S8x20_S8192x20_1_0_0_1_n_n_wf : DotDims.WF S8192x8 S8x20 S8192x20 [1] [0] [0] [1] [] []
  dot_S8192x20_S20x18_S8192x18_1_0_0_1_n_n_wf : DotDims.WF S8192x20 S20x18 S8192x18 [1] [0] [0] [1] [] []
  dot_S8192x18_S18x16_S8192x16_1_0_0_1_n_n_wf : DotDims.WF S8192x18 S18x16 S8192x16 [1] [0] [0] [1] [] []
  dot_S8192x16_S16x14_S8192x14_1_0_0_1_n_n_wf : DotDims.WF S8192x16 S16x14 S8192x14 [1] [0] [0] [1] [] []
  dot_S8192x14_S14x12_S8192x12_1_0_0_1_n_n_wf : DotDims.WF S8192x14 S14x12 S8192x12 [1] [0] [0] [1] [] []
  dot_S8192x12_S12x10_S8192x10_1_0_0_1_n_n_wf : DotDims.WF S8192x12 S12x10 S8192x10 [1] [0] [0] [1] [] []
  dot_S8192x10_S10x8_S8192x8_1_0_0_1_n_n_wf : DotDims.WF S8192x10 S10x8 S8192x8 [1] [0] [0] [1] [] []
  dot_S8192x8_S8x6_S8192x6_1_0_0_1_n_n_wf : DotDims.WF S8192x8 S8x6 S8192x6 [1] [0] [0] [1] [] []
  dot_S8192x6_S6x4_S8192x4_1_0_0_1_n_n_wf : DotDims.WF S8192x6 S6x4 S8192x4 [1] [0] [0] [1] [] []
  dot_S8192x4_S4x1_S8192x1_1_0_0_1_n_n_wf : DotDims.WF S8192x4 S4x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x8.size a ≤ S1048576x8.size a
  hwx0_0 : ∀ i : grid0.Coords, EltTy.bits .f32 = 32 ∨ (Rect.block (s := S1048576x8) S8192x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x20.size a ≤ S8x20.size a
  hwx0_1 : ∀ i : grid0.Coords, EltTy.bits .f32 = 32 ∨ (Rect.block (s := S8x20) S8x20.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x20.size a ≤ S1x20.size a
  hwx0_2 : ∀ i : grid0.Coords, EltTy.bits .f32 = 32 ∨ (Rect.block (s := S1x20) S1x20.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S20x18.size a ≤ S20x18.size a
  hwx0_3 : ∀ i : grid0.Coords, EltTy.bits .f32 = 32 ∨ (Rect.block (s := S20x18) S20x18.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x18.size a ≤ S1x18.size a
  hwx0_4 : ∀ i : grid0.Coords, EltTy.bits .f32 = 32 ∨ (Rect.block (s := S1x18) S1x18.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S18x16.size a ≤ S18x16.size a
  hwx0_5 : ∀ i : grid0.Coords, EltTy.bits .f32 = 32 ∨ (Rect.block (s := S18x16) S18x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x16.size a ≤ S1x16.size a
  hwx0_6 : ∀ i : grid0.Coords, EltTy.bits .f32 = 32 ∨ (Rect.block (s := S1x16) S1x16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x14.size a ≤ S16x14.size a
  hwx0_7 : ∀ i : grid0.Coords, EltTy.bits .f32 = 32 ∨ (Rect.block (s := S16x14) S16x14.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x14.size a ≤ S1x14.size a
  hwx0_8 : ∀ i : grid0.Coords, EltTy.bits .f32 = 32 ∨ (Rect.block (s := S1x14) S1x14.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S14x12.size a ≤ S14x12.size a
  hwx0_9 : ∀ i : grid0.Coords, EltTy.bits .f32 = 32 ∨ (Rect.block (s := S14x12) S14x12.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x12.size a ≤ S1x12.size a
  hwx0_10 : ∀ i : grid0.Coords, EltTy.bits .f32 = 32 ∨ (Rect.block (s := S1x12) S1x12.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S12x10.size a ≤ S12x10.size a
  hwx0_11 : ∀ i : grid0.Coords, EltTy.bits .f32 = 32 ∨ (Rect.block (s := S12x10) S12x10.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x10.size a ≤ S1x10.size a
  hwx0_12 : ∀ i : grid0.Coords, EltTy.bits .f32 = 32 ∨ (Rect.block (s := S1x10) S1x10.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S10x8.size a ≤ S10x8.size a
  hwx0_13 : ∀ i : grid0.Coords, EltTy.bits .f32 = 32 ∨ (Rect.block (s := S10x8) S10x8.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x8.size a ≤ S1x8.size a
  hwx0_14 : ∀ i : grid0.Coords, EltTy.bits .f32 = 32 ∨ (Rect.block (s := S1x8) S1x8.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S8x6.size a ≤ S8x6.size a
  hwx0_15 : ∀ i : grid0.Coords, EltTy.bits .f32 = 32 ∨ (Rect.block (s := S8x6) S8x6.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x6.size a ≤ S1x6.size a
  hwx0_16 : ∀ i : grid0.Coords, EltTy.bits .f32 = 32 ∨ (Rect.block (s := S1x6) S1x6.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S6x4.size a ≤ S6x4.size a
  hwx0_17 : ∀ i : grid0.Coords, EltTy.bits .f32 = 32 ∨ (Rect.block (s := S6x4) S6x4.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x4.size a ≤ S1x4.size a
  hwx0_18 : ∀ i : grid0.Coords, EltTy.bits .f32 = 32 ∨ (Rect.block (s := S1x4) S1x4.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S4x1.size a ≤ S4x1.size a
  hwx0_19 : ∀ i : grid0.Coords, EltTy.bits .f32 = 32 ∨ (Rect.block (s := S4x1) S4x1.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x1.size a ≤ S1x1.size a
  hwx0_20 : ∀ i : grid0.Coords, EltTy.bits .f32 = 32 ∨ (Rect.block (s := S1x1) S1x1.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S8192x1.size a ≤ S1048576x1.size a
  hwx0_21 : ∀ i : grid0.Coords, EltTy.bits .f32 = 32 ∨ (Rect.block (s := S1048576x1) S8192x1.size (cc0_transform_21 i) (hinb0_21 i)).WholeWords (EltTy.packing .f32)

variable [Facts₀]

def dot_S8192x8_S8x20_S8192x20_1_0_0_1_n_n : DotDims S8192x8 S8x20 S8192x20 where
  lhsContracting := [1]
  rhsContracting := [0]
  lhsNonContracting := [0]
  rhsNonContracting := [1]
  lhsBatch := []
  rhsBatch := []
  wf := dot_S8192x8_S8x20_S8192x20_1_0_0_1_n_n_wf
def dot_S8192x20_S20x18_S8192x18_1_0_0_1_n_n : DotDims S8192x20 S20x18 S8192x18 where
  lhsContracting := [1]
  rhsContracting := [0]
  lhsNonContracting := [0]
  rhsNonContracting := [1]
  lhsBatch := []
  rhsBatch := []
  wf := dot_S8192x20_S20x18_S8192x18_1_0_0_1_n_n_wf
def dot_S8192x18_S18x16_S8192x16_1_0_0_1_n_n : DotDims S8192x18 S18x16 S8192x16 where
  lhsContracting := [1]
  rhsContracting := [0]
  lhsNonContracting := [0]
  rhsNonContracting := [1]
  lhsBatch := []
  rhsBatch := []
  wf := dot_S8192x18_S18x16_S8192x16_1_0_0_1_n_n_wf
def dot_S8192x16_S16x14_S8192x14_1_0_0_1_n_n : DotDims S8192x16 S16x14 S8192x14 where
  lhsContracting := [1]
  rhsContracting := [0]
  lhsNonContracting := [0]
  rhsNonContracting := [1]
  lhsBatch := []
  rhsBatch := []
  wf := dot_S8192x16_S16x14_S8192x14_1_0_0_1_n_n_wf
def dot_S8192x14_S14x12_S8192x12_1_0_0_1_n_n : DotDims S8192x14 S14x12 S8192x12 where
  lhsContracting := [1]
  rhsContracting := [0]
  lhsNonContracting := [0]
  rhsNonContracting := [1]
  lhsBatch := []
  rhsBatch := []
  wf := dot_S8192x14_S14x12_S8192x12_1_0_0_1_n_n_wf
def dot_S8192x12_S12x10_S8192x10_1_0_0_1_n_n : DotDims S8192x12 S12x10 S8192x10 where
  lhsContracting := [1]
  rhsContracting := [0]
  lhsNonContracting := [0]
  rhsNonContracting := [1]
  lhsBatch := []
  rhsBatch := []
  wf := dot_S8192x12_S12x10_S8192x10_1_0_0_1_n_n_wf
def dot_S8192x10_S10x8_S8192x8_1_0_0_1_n_n : DotDims S8192x10 S10x8 S8192x8 where
  lhsContracting := [1]
  rhsContracting := [0]
  lhsNonContracting := [0]
  rhsNonContracting := [1]
  lhsBatch := []
  rhsBatch := []
  wf := dot_S8192x10_S10x8_S8192x8_1_0_0_1_n_n_wf
def dot_S8192x8_S8x6_S8192x6_1_0_0_1_n_n : DotDims S8192x8 S8x6 S8192x6 where
  lhsContracting := [1]
  rhsContracting := [0]
  lhsNonContracting := [0]
  rhsNonContracting := [1]
  lhsBatch := []
  rhsBatch := []
  wf := dot_S8192x8_S8x6_S8192x6_1_0_0_1_n_n_wf
def dot_S8192x6_S6x4_S8192x4_1_0_0_1_n_n : DotDims S8192x6 S6x4 S8192x4 where
  lhsContracting := [1]
  rhsContracting := [0]
  lhsNonContracting := [0]
  rhsNonContracting := [1]
  lhsBatch := []
  rhsBatch := []
  wf := dot_S8192x6_S6x4_S8192x4_1_0_0_1_n_n_wf
def dot_S8192x4_S4x1_S8192x1_1_0_0_1_n_n : DotDims S8192x4 S4x1 S8192x1 where
  lhsContracting := [1]
  rhsContracting := [0]
  lhsNonContracting := [0]
  rhsNonContracting := [1]
  lhsBatch := []
  rhsBatch := []
  wf := dot_S8192x4_S4x1_S8192x1_1_0_0_1_n_n_wf

abbrev win0_0 : Pipeline.Window sig grid0 :=
  Pipeline.Window.ofSpec (Memref.whole main_arg0) S8192x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x20.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x20.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S20x18.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x18.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S18x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S16x14.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x14.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S14x12.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S1x12.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S12x10.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v5) S1x10.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S10x8.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v6) S1x8.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S8x6.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v7) S1x6.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S6x4.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v8) S1x4.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S4x1.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v9) S1x1.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v10) S8192x1.size cc0_transform_21 reads0_21 true false 2 stage0_21 sem0_21
    hrank0 hreads0_21 hinb0_21 nbuf0_21 (Memref.isWhole_whole _) hwx0_21 hstage0_21

abbrev win0 : Fin 22 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | ⟨_ + 22, h⟩ => absurd h (Nat.not_lt.2 (Nat.le_add_left _ _))
abbrev spec0 : Fin 22 → Pipeline.WinSpec sig grid0.rank := fun w => (win0 w).toWinSpec

class Facts : Prop extends Facts₀ where

variable [Facts]
-- ==== ReferenceIdeal.lean ====
abbrev S1048576x8 : Shape := ⟨2, ![1048576, 8]⟩
abbrev S8x20 : Shape := ⟨2, ![8, 20]⟩
abbrev S20 : Shape := ⟨1, ![20]⟩
abbrev S20x18 : Shape := ⟨2, ![20, 18]⟩
abbrev S18 : Shape := ⟨1, ![18]⟩
abbrev S18x16 : Shape := ⟨2, ![18, 16]⟩
abbrev S16 : Shape := ⟨1, ![16]⟩
abbrev S16x14 : Shape := ⟨2, ![16, 14]⟩
abbrev S14 : Shape := ⟨1, ![14]⟩
abbrev S14x12 : Shape := ⟨2, ![14, 12]⟩
abbrev S12 : Shape := ⟨1, ![12]⟩
abbrev S12x10 : Shape := ⟨2, ![12, 10]⟩
abbrev S10 : Shape := ⟨1, ![10]⟩
abbrev S10x8 : Shape := ⟨2, ![10, 8]⟩
abbrev S8 : Shape := ⟨1, ![8]⟩
abbrev S8x6 : Shape := ⟨2, ![8, 6]⟩
abbrev S6 : Shape := ⟨1, ![6]⟩
abbrev S6x4 : Shape := ⟨2, ![6, 4]⟩
abbrev S4 : Shape := ⟨1, ![4]⟩
abbrev S4x1 : Shape := ⟨2, ![4, 1]⟩
abbrev S1 : Shape := ⟨1, ![1]⟩
abbrev S1048576x20 : Shape := ⟨2, ![1048576, 20]⟩
abbrev S1x20 : Shape := ⟨2, ![1, 20]⟩
abbrev S_ : Shape := ⟨0, ![]⟩
abbrev S1048576x18 : Shape := ⟨2, ![1048576, 18]⟩
abbrev S1x18 : Shape := ⟨2, ![1, 18]⟩
abbrev S1048576x16 : Shape := ⟨2, ![1048576, 16]⟩
abbrev S1x16 : Shape := ⟨2, ![1, 16]⟩
abbrev S1048576x14 : Shape := ⟨2, ![1048576, 14]⟩
abbrev S1x14 : Shape := ⟨2, ![1, 14]⟩
abbrev S1048576x12 : Shape := ⟨2, ![1048576, 12]⟩
abbrev S1x12 : Shape := ⟨2, ![1, 12]⟩
abbrev S1048576x10 : Shape := ⟨2, ![1048576, 10]⟩
abbrev S1x10 : Shape := ⟨2, ![1, 10]⟩
abbrev S1x8 : Shape := ⟨2, ![1, 8]⟩
abbrev S1048576x6 : Shape := ⟨2, ![1048576, 6]⟩
abbrev S1x6 : Shape := ⟨2, ![1, 6]⟩
abbrev S1048576x4 : Shape := ⟨2, ![1048576, 4]⟩
abbrev S1x4 : Shape := ⟨2, ![1, 4]⟩
abbrev S1048576x1 : Shape := ⟨2, ![1048576, 1]⟩
abbrev S1x1 : Shape := ⟨2, ![1, 1]⟩

abbrev nBuf : Space → Nat
  | .hbm => 96
  | .vmem => 0
  | .smem => 0
  | _ => 0

abbrev bufTy : (tb : Table) → Fin (tcTables nBuf tb) → BufTy
  | .hbm, ⟨0, _⟩ => ⟨S1048576x8, .f32⟩
  | .hbm, ⟨1, _⟩ => ⟨S8x20, .f32⟩
  | .hbm, ⟨2, _⟩ => ⟨S20, .f32⟩
  | .hbm, ⟨3, _⟩ => ⟨S20x18, .f32⟩
  | .hbm, ⟨4, _⟩ => ⟨S18, .f32⟩
  | .hbm, ⟨5, _⟩ => ⟨S18x16, .f32⟩
  | .hbm, ⟨6, _⟩ => ⟨S16, .f32⟩
  | .hbm, ⟨7, _⟩ => ⟨S16x14, .f32⟩
  | .hbm, ⟨8, _⟩ => ⟨S14, .f32⟩
  | .hbm, ⟨9, _⟩ => ⟨S14x12, .f32⟩
  | .hbm, ⟨10, _⟩ => ⟨S12, .f32⟩
  | .hbm, ⟨11, _⟩ => ⟨S12x10, .f32⟩
  | .hbm, ⟨12, _⟩ => ⟨S10, .f32⟩
  | .hbm, ⟨13, _⟩ => ⟨S10x8, .f32⟩
  | .hbm, ⟨14, _⟩ => ⟨S8, .f32⟩
  | .hbm, ⟨15, _⟩ => ⟨S8x6, .f32⟩
  | .hbm, ⟨16, _⟩ => ⟨S6, .f32⟩
  | .hbm, ⟨17, _⟩ => ⟨S6x4, .f32⟩
  | .hbm, ⟨18, _⟩ => ⟨S4, .f32⟩
  | .hbm, ⟨19, _⟩ => ⟨S4x1, .f32⟩
  | .hbm, ⟨20, _⟩ => ⟨S1, .f32⟩
  | .hbm, ⟨21, _⟩ => ⟨S1048576x20, .f32⟩
  | .hbm, ⟨22, _⟩ => ⟨S1x20, .f32⟩
  | .hbm, ⟨23, _⟩ => ⟨S1048576x20, .f32⟩
  | .hbm, ⟨24, _⟩ => ⟨S1048576x20, .f32⟩
  | .hbm, ⟨25, _⟩ => ⟨S_, .f32⟩
  | .hbm, ⟨26, _⟩ => ⟨S1048576x20, .f32⟩
  | .hbm, ⟨27, _⟩ => ⟨S1048576x20, .f32⟩
  | .hbm, ⟨28, _⟩ => ⟨S1048576x18, .f32⟩
  | .hbm, ⟨29, _⟩ => ⟨S1x18, .f32⟩
  | .hbm, ⟨30, _⟩ => ⟨S1048576x18, .f32⟩
  | .hbm, ⟨31, _⟩ => ⟨S1048576x18, .f32⟩
  | .hbm, ⟨32, _⟩ => ⟨S_, .f32⟩
  | .hbm, ⟨33, _⟩ => ⟨S1048576x18, .f32⟩
  | .hbm, ⟨34, _⟩ => ⟨S1048576x18, .f32⟩
  | .hbm, ⟨35, _⟩ => ⟨S1048576x16, .f32⟩
  | .hbm, ⟨36, _⟩ => ⟨S1x16, .f32⟩
  | .hbm, ⟨37, _⟩ => ⟨S1048576x16, .f32⟩
  | .hbm, ⟨38, _⟩ => ⟨S1048576x16, .f32⟩
  | .hbm, ⟨39, _⟩ => ⟨S_, .f32⟩
  | .hbm, ⟨40, _⟩ => ⟨S1048576x16, .f32⟩
  | .hbm, ⟨41, _⟩ => ⟨S1048576x16, .f32⟩
  | .hbm, ⟨42, _⟩ => ⟨S1048576x14, .f32⟩
  | .hbm, ⟨43, _⟩ => ⟨S1x14, .f32⟩
  | .hbm, ⟨44, _⟩ => ⟨S1048576x14, .f32⟩
  | .hbm, ⟨45, _⟩ => ⟨S1048576x14, .f32⟩
  | .hbm, ⟨46, _⟩ => ⟨S_, .f32⟩
  | .hbm, ⟨47, _⟩ => ⟨S1048576x14, .f32⟩
  | .hbm, ⟨48, _⟩ => ⟨S1048576x14, .f32⟩
  | .hbm, ⟨49, _⟩ => ⟨S1048576x12, .f32⟩
  | .hbm, ⟨50, _⟩ => ⟨S1x12, .f32⟩
  | .hbm, ⟨51, _⟩ => ⟨S1048576x12, .f32⟩
  | .hbm, ⟨52, _⟩ => ⟨S1048576x12, .f32⟩
  | .hbm, ⟨53, _⟩ => ⟨S_, .f32⟩
  | .hbm, ⟨54, _⟩ => ⟨S1048576x12, .f32⟩
  | .hbm, ⟨55, _⟩ => ⟨S1048576x12, .f32⟩
  | .hbm, ⟨56, _⟩ => ⟨S1048576x10, .f32⟩
  | .hbm, ⟨57, _⟩ => ⟨S1x10, .f32⟩
  | .hbm, ⟨58, _⟩ => ⟨S1048576x10, .f32⟩
  | .hbm, ⟨59, _⟩ => ⟨S1048576x10, .f32⟩
  | .hbm, ⟨60, _⟩ => ⟨S_, .f32⟩
  | .hbm, ⟨61, _⟩ => ⟨S1048576x10, .f32⟩
  | .hbm, ⟨62, _⟩ => ⟨S1048576x10, .f32⟩
  | .hbm, ⟨63, _⟩ => ⟨S1048576x8, .f32⟩
  | .hbm, ⟨64, _⟩ => ⟨S1x8, .f32⟩
  | .hbm, ⟨65, _⟩ => ⟨S1048576x8, .f32⟩
  | .hbm, ⟨66, _⟩ => ⟨S1048576x8, .f32⟩
  | .hbm, ⟨67, _⟩ => ⟨S_, .f32⟩
  | .hbm, ⟨68, _⟩ => ⟨S1048576x8, .f32⟩
  | .hbm, ⟨69, _⟩ => ⟨S1048576x8, .f32⟩
  | .hbm, ⟨70, _⟩ => ⟨S1048576x6, .f32⟩
  | .hbm, ⟨71, _⟩ => ⟨S1x6, .f32⟩
  | .hbm, ⟨72, _⟩ => ⟨S1048576x6, .f32⟩
  | .hbm, ⟨73, _⟩ => ⟨S1048576x6, .f32⟩
  | .hbm, ⟨74, _⟩ => ⟨S_, .f32⟩
  | .hbm, ⟨75, _⟩ => ⟨S1048576x6, .f32⟩
  | .hbm, ⟨76, _⟩ => ⟨S1048576x6, .f32⟩
  | .hbm, ⟨77, _⟩ => ⟨S1048576x4, .f32⟩
  | .hbm, ⟨78, _⟩ => ⟨S1x4, .f32⟩
  | .hbm, ⟨79, _⟩ => ⟨S1048576x4, .f32⟩
  | .hbm, ⟨80, _⟩ => ⟨S1048576x4, .f32⟩
  | .hbm, ⟨81, _⟩ => ⟨S_, .f32⟩
  | .hbm, ⟨82, _⟩ => ⟨S1048576x4, .f32⟩
  | .hbm, ⟨83, _⟩ => ⟨S1048576x4, .f32⟩
  | .hbm, ⟨84, _⟩ => ⟨S1048576x1, .f32⟩
  | .hbm, ⟨85, _⟩ => ⟨S1x1, .f32⟩
  | .hbm, ⟨86, _⟩ => ⟨S1048576x1, .f32⟩
  | .hbm, ⟨87, _⟩ => ⟨S1048576x1, .f32⟩
  | .hbm, ⟨88, _⟩ => ⟨S1048576x1, .f32⟩
  | .hbm, ⟨89, _⟩ => ⟨S1048576x1, .f32⟩
  | .hbm, ⟨90, _⟩ => ⟨S_, .f32⟩
  | .hbm, ⟨91, _⟩ => ⟨S1048576x1, .f32⟩
  | .hbm, ⟨92, _⟩ => ⟨S1048576x1, .f32⟩
  | .hbm, ⟨93, _⟩ => ⟨S_, .f32⟩
  | .hbm, ⟨94, _⟩ => ⟨S1048576x1, .f32⟩
  | .hbm, ⟨95, _⟩ => ⟨S1048576x1, .f32⟩
  | _, _ => ⟨S1048576x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_call0_cst : Ref sig .tc := ⟨.hbm, 25, rfl⟩
abbrev main_call0_v0 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_call1_cst : Ref sig .tc := ⟨.hbm, 32, rfl⟩
abbrev main_call1_v0 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_call2_cst : Ref sig .tc := ⟨.hbm, 39, rfl⟩
abbrev main_call2_v0 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_call3_cst : Ref sig .tc := ⟨.hbm, 46, rfl⟩
abbrev main_call3_v0 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_call4_cst : Ref sig .tc := ⟨.hbm, 53, rfl⟩
abbrev main_call4_v0 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_call5_cst : Ref sig .tc := ⟨.hbm, 60, rfl⟩
abbrev main_call5_v0 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_call6_cst : Ref sig .tc := ⟨.hbm, 67, rfl⟩
abbrev main_call6_v0 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_call7_cst : Ref sig .tc := ⟨.hbm, 74, rfl⟩
abbrev main_call7_v0 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_call8_cst : Ref sig .tc := ⟨.hbm, 81, rfl⟩
abbrev main_call8_v0 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_cst : Ref sig .tc := ⟨.hbm, 90, rfl⟩
abbrev main_v51 : Ref sig .tc := ⟨.hbm, 91, rfl⟩
abbrev main_v52 : Ref sig .tc := ⟨.hbm, 92, rfl⟩
abbrev main_cst_0 : Ref sig .tc := ⟨.hbm, 93, rfl⟩
abbrev main_v53 : Ref sig .tc := ⟨.hbm, 94, rfl⟩
abbrev main_v54 : Ref sig .tc := ⟨.hbm, 95, rfl⟩

abbrev nD : Nat := 1
abbrev τ : Topo := Topo.v7x

variable {F : FTy → Type} [FloatOps F]

class Facts₀ : Prop where
  bcast_S20_S1x20_1 : S20.BroadcastsInDim S1x20 (![1] : Fin 1 → Fin S1x20.rank)
  bcast_S1x20_S1048576x20_0_1 : S1x20.BroadcastsInDim S1048576x20 (![0, 1] : Fin 2 → Fin S1048576x20.rank)
  bcast_S_S1048576x20 : S_.BroadcastsInDim S1048576x20 (![] : Fin 0 → Fin S1048576x20.rank)
  bcast_S18_S1x18_1 : S18.BroadcastsInDim S1x18 (![1] : Fin 1 → Fin S1x18.rank)
  bcast_S1x18_S1048576x18_0_1 : S1x18.BroadcastsInDim S1048576x18 (![0, 1] : Fin 2 → Fin S1048576x18.rank)
  bcast_S_S1048576x18 : S_.BroadcastsInDim S1048576x18 (![] : Fin 0 → Fin S1048576x18.rank)
  bcast_S16_S1x16_1 : S16.BroadcastsInDim S1x16 (![1] : Fin 1 → Fin S1x16.rank)
  bcast_S1x16_S1048576x16_0_1 : S1x16.BroadcastsInDim S1048576x16 (![0, 1] : Fin 2 → Fin S1048576x16.rank)
  bcast_S_S1048576x16 : S_.BroadcastsInDim S1048576x16 (![] : Fin 0 → Fin S1048576x16.rank)
  bcast_S14_S1x14_1 : S14.BroadcastsInDim S1x14 (![1] : Fin 1 → Fin S1x14.rank)
  bcast_S1x14_S1048576x14_0_1 : S1x14.BroadcastsInDim S1048576x14 (![0, 1] : Fin 2 → Fin S1048576x14.rank)
  bcast_S_S1048576x14 : S_.BroadcastsInDim S1048576x14 (![] : Fin 0 → Fin S1048576x14.rank)
  bcast_S12_S1x12_1 : S12.BroadcastsInDim S1x12 (![1] : Fin 1 → Fin S1x12.rank)
  bcast_S1x12_S1048576x12_0_1 : S1x12.BroadcastsInDim S1048576x12 (![0, 1] : Fin 2 → Fin S1048576x12.rank)
  bcast_S_S1048576x12 : S_.BroadcastsInDim S1048576x12 (![] : Fin 0 → Fin S1048576x12.rank)
  bcast_S10_S1x10_1 : S10.BroadcastsInDim S1x10 (![1] : Fin 1 → Fin S1x10.rank)
  bcast_S1x10_S1048576x10_0_1 : S1x10.BroadcastsInDim S1048576x10 (![0, 1] : Fin 2 → Fin S1048576x10.rank)
  bcast_S_S1048576x10 : S_.BroadcastsInDim S1048576x10 (![] : Fin 0 → Fin S1048576x10.rank)
  bcast_S8_S1x8_1 : S8.BroadcastsInDim S1x8 (![1] : Fin 1 → Fin S1x8.rank)
  bcast_S1x8_S1048576x8_0_1 : S1x8.BroadcastsInDim S1048576x8 (![0, 1] : Fin 2 → Fin S1048576x8.rank)
  bcast_S_S1048576x8 : S_.BroadcastsInDim S1048576x8 (![] : Fin 0 → Fin S1048576x8.rank)
  bcast_S6_S1x6_1 : S6.BroadcastsInDim S1x6 (![1] : Fin 1 → Fin S1x6.rank)
  bcast_S1x6_S1048576x6_0_1 : S1x6.BroadcastsInDim S1048576x6 (![0, 1] : Fin 2 → Fin S1048576x6.rank)
  bcast_S_S1048576x6 : S_.BroadcastsInDim S1048576x6 (![] : Fin 0 → Fin S1048576x6.rank)
  bcast_S4_S1x4_1 : S4.BroadcastsInDim S1x4 (![1] : Fin 1 → Fin S1x4.rank)
  bcast_S1x4_S1048576x4_0_1 : S1x4.BroadcastsInDim S1048576x4 (![0, 1] : Fin 2 → Fin S1048576x4.rank)
  bcast_S_S1048576x4 : S_.BroadcastsInDim S1048576x4 (![] : Fin 0 → Fin S1048576x4.rank)
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  bcast_S_S1048576x1 : S_.BroadcastsInDim S1048576x1 (![] : Fin 0 → Fin S1048576x1.rank)
  dot_S1048576x8_S8x20_S1048576x20_1_0_0_1_n_n_wf : DotDims.WF S1048576x8 S8x20 S1048576x20 [1] [0] [0] [1] [] []
  dot_S1048576x20_S20x18_S1048576x18_1_0_0_1_n_n_wf : DotDims.WF S1048576x20 S20x18 S1048576x18 [1] [0] [0] [1] [] []
  dot_S1048576x18_S18x16_S1048576x16_1_0_0_1_n_n_wf : DotDims.WF S1048576x18 S18x16 S1048576x16 [1] [0] [0] [1] [] []
  dot_S1048576x16_S16x14_S1048576x14_1_0_0_1_n_n_wf : DotDims.WF S1048576x16 S16x14 S1048576x14 [1] [0] [0] [1] [] []
  dot_S1048576x14_S14x12_S1048576x12_1_0_0_1_n_n_wf : DotDims.WF S1048576x14 S14x12 S1048576x12 [1] [0] [0] [1] [] []
  dot_S1048576x12_S12x10_S1048576x10_1_0_0_1_n_n_wf : DotDims.WF S1048576x12 S12x10 S1048576x10 [1] [0] [0] [1] [] []
  dot_S1048576x10_S10x8_S1048576x8_1_0_0_1_n_n_wf : DotDims.WF S1048576x10 S10x8 S1048576x8 [1] [0] [0] [1] [] []
  dot_S1048576x8_S8x6_S1048576x6_1_0_0_1_n_n_wf : DotDims.WF S1048576x8 S8x6 S1048576x6 [1] [0] [0] [1] [] []
  dot_S1048576x6_S6x4_S1048576x4_1_0_0_1_n_n_wf : DotDims.WF S1048576x6 S6x4 S1048576x4 [1] [0] [0] [1] [] []
  dot_S1048576x4_S4x1_S1048576x1_1_0_0_1_n_n_wf : DotDims.WF S1048576x4 S4x1 S1048576x1 [1] [0] [0] [1] [] []

variable [Facts₀]

def dot_S1048576x8_S8x20_S1048576x20_1_0_0_1_n_n : DotDims S1048576x8 S8x20 S1048576x20 where
  lhsContracting := [1]
  rhsContracting := [0]
  lhsNonContracting := [0]
  rhsNonContracting := [1]
  lhsBatch := []
  rhsBatch := []
  wf := dot_S1048576x8_S8x20_S1048576x20_1_0_0_1_n_n_wf
def dot_S1048576x20_S20x18_S1048576x18_1_0_0_1_n_n : DotDims S1048576x20 S20x18 S1048576x18 where
  lhsContracting := [1]
  rhsContracting := [0]
  lhsNonContracting := [0]
  rhsNonContracting := [1]
  lhsBatch := []
  rhsBatch := []
  wf := dot_S1048576x20_S20x18_S1048576x18_1_0_0_1_n_n_wf
def dot_S1048576x18_S18x16_S1048576x16_1_0_0_1_n_n : DotDims S1048576x18 S18x16 S1048576x16 where
  lhsContracting := [1]
  rhsContracting := [0]
  lhsNonContracting := [0]
  rhsNonContracting := [1]
  lhsBatch := []
  rhsBatch := []
  wf := dot_S1048576x18_S18x16_S1048576x16_1_0_0_1_n_n_wf
def dot_S1048576x16_S16x14_S1048576x14_1_0_0_1_n_n : DotDims S1048576x16 S16x14 S1048576x14 where
  lhsContracting := [1]
  rhsContracting := [0]
  lhsNonContracting := [0]
  rhsNonContracting := [1]
  lhsBatch := []
  rhsBatch := []
  wf := dot_S1048576x16_S16x14_S1048576x14_1_0_0_1_n_n_wf
def dot_S1048576x14_S14x12_S1048576x12_1_0_0_1_n_n : DotDims S1048576x14 S14x12 S1048576x12 where
  lhsContracting := [1]
  rhsContracting := [0]
  lhsNonContracting := [0]
  rhsNonContracting := [1]
  lhsBatch := []
  rhsBatch := []
  wf := dot_S1048576x14_S14x12_S1048576x12_1_0_0_1_n_n_wf
def dot_S1048576x12_S12x10_S1048576x10_1_0_0_1_n_n : DotDims S1048576x12 S12x10 S1048576x10 where
  lhsContracting := [1]
  rhsContracting := [0]
  lhsNonContracting := [0]
  rhsNonContracting := [1]
  lhsBatch := []
  rhsBatch := []
  wf := dot_S1048576x12_S12x10_S1048576x10_1_0_0_1_n_n_wf
def dot_S1048576x10_S10x8_S1048576x8_1_0_0_1_n_n : DotDims S1048576x10 S10x8 S1048576x8 where
  lhsContracting := [1]
  rhsContracting := [0]
  lhsNonContracting := [0]
  rhsNonContracting := [1]
  lhsBatch := []
  rhsBatch := []
  wf := dot_S1048576x10_S10x8_S1048576x8_1_0_0_1_n_n_wf
def dot_S1048576x8_S8x6_S1048576x6_1_0_0_1_n_n : DotDims S1048576x8 S8x6 S1048576x6 where
  lhsContracting := [1]
  rhsContracting := [0]
  lhsNonContracting := [0]
  rhsNonContracting := [1]
  lhsBatch := []
  rhsBatch := []
  wf := dot_S1048576x8_S8x6_S1048576x6_1_0_0_1_n_n_wf
def dot_S1048576x6_S6x4_S1048576x4_1_0_0_1_n_n : DotDims S1048576x6 S6x4 S1048576x4 where
  lhsContracting := [1]
  rhsContracting := [0]
  lhsNonContracting := [0]
  rhsNonContracting := [1]
  lhsBatch := []
  rhsBatch := []
  wf := dot_S1048576x6_S6x4_S1048576x4_1_0_0_1_n_n_wf
def dot_S1048576x4_S4x1_S1048576x1_1_0_0_1_n_n : DotDims S1048576x4 S4x1 S1048576x1 where
  lhsContracting := [1]
  rhsContracting := [0]
  lhsNonContracting := [0]
  rhsNonContracting := [1]
  lhsBatch := []
  rhsBatch := []
  wf := dot_S1048576x4_S4x1_S1048576x1_1_0_0_1_n_n_wf

class Facts : Prop extends Facts₀ where

variable [Facts]
-- ==== Proof.LibPlainDot.lean ====
/-
  A plain matrix product's contraction sum, re-indexed by the contracted coordinate.

  For a dot of an [n, K] operand with a [K, M] operand into [n, M] that contracts the left operand's axis 1 with the
  right operand's axis 0 and has no batch axes, the sum over the contraction index of left(row i, k) * right(k, column i)
  is the sum over k : Fin K of L (i 0, k) * R (k, i 1): what both a kernel's matrix unit and a host dot_general
  compute at an output index over the extended reals.
-/
import Idealize.ShloMosaic.PureOps.Ideal.Laws
import Idealize.ShloMosaic.Lib.ValueIdx

namespace Cert.LibPlainDot

open Idealize.ShloMosaic Idealize.ShloMosaic.ValueIdx

variable {n K M : Nat}

/-- The dimension numbers of a plain product: contract axis 1 with axis 0, keep axis 0 and axis 1, no batch axes. -/
structure IsPlain (d : DotDims ⟨2, ![n, K]⟩ ⟨2, ![K, M]⟩ ⟨2, ![n, M]⟩) : Prop where
  lc : d.lhsContracting = [1]
  rc : d.rhsContracting = [0]
  ln : d.lhsNonContracting = [0]
  rn : d.rhsNonContracting = [1]
  lb : d.lhsBatch = []
  rb : d.rhsBatch = []

/-- The contraction sum of a plain product at output index `i` is the sum over the contracted coordinate. -/
theorem sum_contr {α : Type} [AddCommMonoid α] (d : DotDims ⟨2, ![n, K]⟩ ⟨2, ![K, M]⟩ ⟨2, ![n, M]⟩) (hd : IsPlain d)
    (f : (⟨2, ![n, K]⟩ : Shape).Idx → (⟨2, ![K, M]⟩ : Shape).Idx → α) (i : (⟨2, ![n, M]⟩ : Shape).Idx) :
    ∑ q : d.contr.Idx, f (d.lhsIdx i q) (d.rhsIdx i q) = ∑ k : Fin K, f (ix2 (i 0) k) (ix2 k (i 1)) := by
  obtain ⟨lc, rc, ln, rn, lb, rb, wf⟩ := d
  obtain ⟨h1, h2, h3, h4, h5, h6⟩ := hd
  simp only at h1 h2 h3 h4 h5 h6
  subst h1 h2 h3 h4 h5 h6
  let d : DotDims ⟨2, ![n, K]⟩ ⟨2, ![K, M]⟩ ⟨2, ![n, M]⟩ := ⟨[1], [0], [0], [1], [], [], wf⟩
  show ∑ q : d.contr.Idx, f (d.lhsIdx i q) (d.rhsIdx i q) = _
  rw [← Equiv.sum_comp (contrEquiv1 d K rfl rfl).symm]
  refine Finset.sum_congr rfl fun k _ => ?_
  have hk := contrEquiv1_symm_val d K rfl rfl k
  have el : d.lhsIdx i ((contrEquiv1 d K rfl rfl).symm k) = ix2 (i 0) k := funext fun a => Fin.ext (by
    match a with
    | ⟨0, _⟩ =>
      show (d.lhsIdx i _ 0).val = (i 0).val
      unfold DotDims.lhsIdx
      rw [dif_neg (show ¬(0 : Fin (⟨2, ![n, K]⟩ : Shape).rank) ∈ d.lhsBatch from List.not_mem_nil),
        dif_pos (show (0 : Fin (⟨2, ![n, K]⟩ : Shape).rank) ∈ d.lhsNonContracting from List.mem_singleton.mpr rfl)]
      rfl
    | ⟨1, _⟩ => exact (d.lhsIdx_val_of_single rfl i _).trans hk)
  have er : d.rhsIdx i ((contrEquiv1 d K rfl rfl).symm k) = ix2 k (i 1) := funext fun a => Fin.ext (by
    match a with
    | ⟨0, _⟩ => exact (d.rhsIdx_val_of_single rfl i _).trans hk
    | ⟨1, _⟩ =>
      show (d.rhsIdx i _ 1).val = (i 1).val
      unfold DotDims.rhsIdx
      rw [dif_neg (show ¬(1 : Fin (⟨2, ![K, M]⟩ : Shape).rank) ∈ d.rhsBatch from List.not_mem_nil),
        dif_pos (show (1 : Fin (⟨2, ![K, M]⟩ : Shape).rank) ∈ d.rhsNonContracting from List.mem_singleton.mpr rfl)]
      rfl)
  rw [el, er]
  try rfl

end Cert.LibPlainDot
-- ==== Proof.LibDotApply.lean ====
/-
  A plain matrix product read at an entry, over the extended reals.

  For an [n, K] operand and a [K, M] operand contracted over K with no batch axes, the kernel's matrix-unit product
  into a zero accumulator and the host's dot_general both read, at entry (p, c), the sum over k : Fin K of
  L (p, k) * R (k, c): there is no rounding and no order of accumulation left in either.
-/
import proofs.«140085_j55508157334216_1_alg».proof.Proof.LibPlainDot
import Idealize.ShloMosaic.PureOps.Ideal.Laws
import Idealize.ShloMosaic.Lib.ValueIdx

noncomputable section

namespace Cert.LibDotApply

open Idealize.ShloMosaic Idealize.ShloMosaic.ValueIdx Cert.LibPlainDot

variable {n K M : Nat} {φ₁ φ₂ : FTy}

/-- A kernel's matrix-unit product of plain dimension numbers into a zero accumulator, at entry (p, c). -/
theorem matmul_zero_apply (d : DotDims ⟨2, ![n, K]⟩ ⟨2, ![K, M]⟩ ⟨2, ![n, M]⟩) (hd : IsPlain d) (prec : Option ContractPrecision)
    (lhs : FVec Ideal ⟨2, ![n, K]⟩ φ₁) (rhs : FVec Ideal ⟨2, ![K, M]⟩ φ₂) (p : Fin n) (c : Fin M) :
    FloatOps.matmul d prec lhs rhs (constant ⟨2, ![n, M]⟩ .f32 0x00000000#32) (ix2 p c)
      = ∑ k : Fin K, lhs (ix2 p k) * rhs (ix2 k c) :=
  (Ideal.matmul_constant_zero_apply d prec lhs rhs (ix2 p c)).trans
    (sum_contr d hd (fun a b => lhs a * rhs b) (ix2 p c))

/-- The host's dot_general of plain dimension numbers, at entry (p, c). -/
theorem dotGeneral_apply (d : DotDims ⟨2, ![n, K]⟩ ⟨2, ![K, M]⟩ ⟨2, ![n, M]⟩) (hd : IsPlain d) (prec : Option ContractPrecision)
    (sched : HostSchedule) (lhs : FVec Ideal ⟨2, ![n, K]⟩ φ₁) (rhs : FVec Ideal ⟨2, ![K, M]⟩ φ₂) (p : Fin n) (c : Fin M) :
    FloatOps.dotGeneral d prec sched lhs rhs (ix2 p c) = ∑ k : Fin K, lhs (ix2 p k) * rhs (ix2 k c) :=
  (Ideal.dotGeneral_apply d prec sched lhs rhs (ix2 p c)).trans
    (sum_contr d hd (fun a b => lhs a * rhs b) (ix2 p c))

end Cert.LibDotApply

end
-- ==== Proof.LibDenseLayer.lean ====
/-
  A dense layer of a multilayer perceptron, read one row at a time over the extended reals.

  A row h of K activations, a K-by-M weight matrix W and M biases b give the affine row
  c ↦ (∑ k, h k * W k c) + b c; a hidden layer clamps each entry below at zero. A kernel's spelling of the layer
  (matrix-unit product into a zero accumulator, the bias a [1, M] row broadcast down the rows, the clamp against a
  splat zero, narrowing casts that are the identity over the extended reals) and the host's spelling (dot_general,
  the bias an [M] vector broadcast in two steps, the clamp against a broadcast scalar zero) both read, at row p, as
  these functions of row p of the layer's input. Nothing here needs finiteness: both spellings add and multiply
  the same extended reals in the same order.
-/
import proofs.«140085_j55508157334216_1_alg».proof.Proof.LibDotApply
import Idealize.ShloMosaic.PureOps.Ideal.Laws
import Idealize.ShloMosaic.Lib.ValueIdx
import Idealize.ShloMosaic.Lib.Pipeline.Value

noncomputable section

namespace Cert.LibDenseLayer

open Idealize.ShloMosaic Idealize.ShloMosaic.ValueIdx Cert.LibPlainDot Cert.LibDotApply

variable {n K M : Nat}

/-! ## The layer as functions of one row -/

/-- The affine map of a row: entry c is the dot product of the row with column c of W, plus bias c. -/
def affine (h : Fin K → EReal) (W : Fin K → Fin M → EReal) (b : Fin M → EReal) : Fin M → EReal :=
  fun c => (∑ k : Fin K, h k * W k c) + b c

/-- The rectifier: each entry clamped below at the float zero (the word 0x00000000, which denotes 0). -/
def relu (v : Fin M → EReal) : Fin M → EReal := fun c => max (v c) (Ideal.ofBits .f32 0x00000000#32)

/-- Row p of a matrix of extended reals. -/
def row (v : (⟨2, ![n, K]⟩ : Shape).Idx → EReal) (p : Fin n) : Fin K → EReal := fun k => v (ix2 p k)

/-- A matrix of extended reals as a function of its two coordinates. -/
def mat (W : (⟨2, ![K, M]⟩ : Shape).Idx → EReal) : Fin K → Fin M → EReal := fun k c => W (ix2 k c)

/-- A vector of extended reals as a function of its coordinate. -/
def vec (b : (⟨1, ![M]⟩ : Shape).Idx → EReal) : Fin M → EReal := fun c => b (ix1 c)

/-- A coordinate below M is 0 when M = 1: the index a broadcast reads on an axis of extent M. -/
theorem val_eq_ite (c : Fin M) : c.val = if M = 1 then 0 else c.val := by
  have := c.isLt
  split
  · omega
  · rfl

/-- An [M] vector reshaped to a [1, M] matrix has the vector as its row 0: entry (0, c) and entry c sit at the
    same row-major position. -/
theorem row_shapeCast_vec (b : (⟨1, ![M]⟩ : Shape).Idx → EReal) (h : (⟨1, ![M]⟩ : Shape).ShapeCasts ⟨2, ![1, M]⟩) :
    row (shapeCast ⟨2, ![1, M]⟩ b h) 0 = vec b := by
  funext c
  exact shapeCast_apply b h (ix2 0 c) (ix1 c) (by
    rw [Shape.rowMajor_val_one, Shape.rowMajor_val_two]
    show c.val = 0 * M + c.val
    omega)

/-! ## The kernel's spelling -/

/-- The kernel's affine stage: the matrix-unit product of the activations with the weights narrowed to bf16, into a
    zero accumulator, plus the [1, M] bias row broadcast down the n rows. -/
def kAffine (d : DotDims ⟨2, ![n, K]⟩ ⟨2, ![K, M]⟩ ⟨2, ![n, M]⟩) (h : FVec Ideal ⟨2, ![n, K]⟩ .bf16)
    (W : FVec Ideal ⟨2, ![K, M]⟩ .f32) (b : FVec Ideal ⟨2, ![1, M]⟩ .f32)
    (hlt : FTy.bits .bf16 < FTy.bits .f32) (hsc : (⟨2, ![1, M]⟩ : Shape).ShapeCasts ⟨2, ![1, M]⟩)
    (hbc : (⟨2, ![1, M]⟩ : Shape).Broadcasts ⟨2, ![n, M]⟩) : FVec Ideal ⟨2, ![n, M]⟩ .f32 :=
  addf (matmul d none h (truncf .bf16 W hlt) (constant ⟨2, ![n, M]⟩ .f32 0x00000000#32))
    (broadcastTo ⟨2, ![n, M]⟩ (shapeCast ⟨2, ![1, M]⟩ b hsc) hbc)

/-- The kernel's hidden layer: the affine stage clamped against a splat zero, then narrowed to bf16. -/
def kHidden (d : DotDims ⟨2, ![n, K]⟩ ⟨2, ![K, M]⟩ ⟨2, ![n, M]⟩) (h : FVec Ideal ⟨2, ![n, K]⟩ .bf16)
    (W : FVec Ideal ⟨2, ![K, M]⟩ .f32) (b : FVec Ideal ⟨2, ![1, M]⟩ .f32)
    (hlt : FTy.bits .bf16 < FTy.bits .f32) (hsc : (⟨2, ![1, M]⟩ : Shape).ShapeCasts ⟨2, ![1, M]⟩)
    (hbc : (⟨2, ![1, M]⟩ : Shape).Broadcasts ⟨2, ![n, M]⟩) : FVec Ideal ⟨2, ![n, M]⟩ .bf16 :=
  truncf .bf16 (maximumf (kAffine d h W b hlt hsc hbc) (broadcast ⟨2, ![n, M]⟩ (Scalar.ofBits .f32 0x00000000#32))) hlt

/-- Row p of the kernel's affine stage is the affine map of row p of the activations; the bias is row 0 of the
    [1, M] block. -/
theorem row_kAffine (d : DotDims ⟨2, ![n, K]⟩ ⟨2, ![K, M]⟩ ⟨2, ![n, M]⟩) (hd : IsPlain d)
    (h : FVec Ideal ⟨2, ![n, K]⟩ .bf16) (W : FVec Ideal ⟨2, ![K, M]⟩ .f32) (b : FVec Ideal ⟨2, ![1, M]⟩ .f32)
    (hlt : FTy.bits .bf16 < FTy.bits .f32) (hsc : (⟨2, ![1, M]⟩ : Shape).ShapeCasts ⟨2, ![1, M]⟩)
    (hbc : (⟨2, ![1, M]⟩ : Shape).Broadcasts ⟨2, ![n, M]⟩) (p : Fin n) :
    row (kAffine d h W b hlt hsc hbc) p = affine (row h p) (mat W) (row b 0) := by
  funext c
  have hm : FloatOps.matmul d none h (truncf .bf16 W hlt) (constant ⟨2, ![n, M]⟩ .f32 0x00000000#32) (ix2 p c)
      = ∑ k : Fin K, h (ix2 p k) * W (ix2 k c) := matmul_zero_apply d hd none h (truncf .bf16 W hlt) p c
  have hb : broadcastTo ⟨2, ![n, M]⟩ (shapeCast ⟨2, ![1, M]⟩ b hsc) hbc (ix2 p c) = b (ix2 0 c) := by
    rw [shapeCast_self]
    exact broadcastTo_apply b hbc (ix2 p c) (ix2 0 c) (fun a => match a with
      | ⟨0, _⟩ => by show (0 : Nat) = if (1 : Nat) = 1 then 0 else _; rw [if_pos rfl]
      | ⟨1, _⟩ => by show c.val = if M = 1 then 0 else c.val; exact val_eq_ite c)
  show FloatOps.matmul d none h (truncf .bf16 W hlt) (constant ⟨2, ![n, M]⟩ .f32 0x00000000#32) (ix2 p c)
      + broadcastTo ⟨2, ![n, M]⟩ (shapeCast ⟨2, ![1, M]⟩ b hsc) hbc (ix2 p c) = _
  rw [hm, hb]
  rfl

/-- Row p of the kernel's hidden layer is the rectified affine map of row p of the activations. -/
theorem row_kHidden (d : DotDims ⟨2, ![n, K]⟩ ⟨2, ![K, M]⟩ ⟨2, ![n, M]⟩) (hd : IsPlain d)
    (h : FVec Ideal ⟨2, ![n, K]⟩ .bf16) (W : FVec Ideal ⟨2, ![K, M]⟩ .f32) (b : FVec Ideal ⟨2, ![1, M]⟩ .f32)
    (hlt : FTy.bits .bf16 < FTy.bits .f32) (hsc : (⟨2, ![1, M]⟩ : Shape).ShapeCasts ⟨2, ![1, M]⟩)
    (hbc : (⟨2, ![1, M]⟩ : Shape).Broadcasts ⟨2, ![n, M]⟩) (p : Fin n) :
    row (kHidden d h W b hlt hsc hbc) p = relu (affine (row h p) (mat W) (row b 0)) := by
  funext c
  show max (row (kAffine d h W b hlt hsc hbc) p c) (Ideal.ofBits .f32 0x00000000#32) = _
  rw [row_kAffine d hd h W b hlt hsc hbc p]
  rfl

/-! ## The host's spelling -/

/-- The host's affine stage: dot_general of the activations with the weights, plus the [M] bias broadcast first to
    a [1, M] row and then down the n rows. -/
def hAffine (d : DotDims ⟨2, ![n, K]⟩ ⟨2, ![K, M]⟩ ⟨2, ![n, M]⟩) (h : FVec Ideal ⟨2, ![n, K]⟩ .f32)
    (W : FVec Ideal ⟨2, ![K, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![n, M]⟩ ![0, 1]) : FVec Ideal ⟨2, ![n, M]⟩ .f32 :=
  addf (Host.dotGeneral d none h W)
    (broadcastInDim ⟨2, ![n, M]⟩ ![0, 1] h2 (broadcastInDim ⟨2, ![1, M]⟩ ![1] h1 b))

/-- The host's hidden layer: the affine stage clamped against a scalar zero broadcast to every entry. -/
def hHidden (d : DotDims ⟨2, ![n, K]⟩ ⟨2, ![K, M]⟩ ⟨2, ![n, M]⟩) (h : FVec Ideal ⟨2, ![n, K]⟩ .f32)
    (W : FVec Ideal ⟨2, ![K, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![n, M]⟩ ![0, 1])
    (h0 : (⟨0, ![]⟩ : Shape).BroadcastsInDim ⟨2, ![n, M]⟩ ![]) : FVec Ideal ⟨2, ![n, M]⟩ .f32 :=
  maximumf (hAffine d h W b h1 h2) (broadcastInDim ⟨2, ![n, M]⟩ ![] h0 (constant ⟨0, ![]⟩ .f32 0x00000000#32))

/-- Row p of the host's affine stage is the affine map of row p of the activations. -/
theorem row_hAffine (d : DotDims ⟨2, ![n, K]⟩ ⟨2, ![K, M]⟩ ⟨2, ![n, M]⟩) (hd : IsPlain d)
    (h : FVec Ideal ⟨2, ![n, K]⟩ .f32) (W : FVec Ideal ⟨2, ![K, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![n, M]⟩ ![0, 1]) (p : Fin n) :
    row (hAffine d h W b h1 h2) p = affine (row h p) (mat W) (vec b) := by
  funext c
  have hm : FloatOps.dotGeneral d none .single h W (ix2 p c) = ∑ k : Fin K, h (ix2 p k) * W (ix2 k c) :=
    dotGeneral_apply d hd none .single h W p c
  have hb : broadcastInDim ⟨2, ![n, M]⟩ ![0, 1] h2 (broadcastInDim ⟨2, ![1, M]⟩ ![1] h1 b) (ix2 p c) = b (ix1 c) :=
    (broadcastInDim_apply _ h2 (broadcastInDim ⟨2, ![1, M]⟩ ![1] h1 b) (ix2 p c) (ix2 0 c) (fun a => match a with
      | ⟨0, _⟩ => by show (0 : Nat) = if (1 : Nat) = 1 then 0 else _; rw [if_pos rfl]
      | ⟨1, _⟩ => by show c.val = if M = 1 then 0 else c.val; exact val_eq_ite c)).trans
    (broadcastInDim_apply _ h1 b (ix2 0 c) (ix1 c) (fun a => match a with
      | ⟨0, _⟩ => by show c.val = if M = 1 then 0 else c.val; exact val_eq_ite c))
  show FloatOps.dotGeneral d none .single h W (ix2 p c)
      + broadcastInDim ⟨2, ![n, M]⟩ ![0, 1] h2 (broadcastInDim ⟨2, ![1, M]⟩ ![1] h1 b) (ix2 p c) = _
  rw [hm, hb]
  rfl

/-- Row p of the host's hidden layer is the rectified affine map of row p of the activations. -/
theorem row_hHidden (d : DotDims ⟨2, ![n, K]⟩ ⟨2, ![K, M]⟩ ⟨2, ![n, M]⟩) (hd : IsPlain d)
    (h : FVec Ideal ⟨2, ![n, K]⟩ .f32) (W : FVec Ideal ⟨2, ![K, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![n, M]⟩ ![0, 1])
    (h0 : (⟨0, ![]⟩ : Shape).BroadcastsInDim ⟨2, ![n, M]⟩ ![]) (p : Fin n) :
    row (hHidden d h W b h1 h2 h0) p = relu (affine (row h p) (mat W) (vec b)) := by
  funext c
  show max (row (hAffine d h W b h1 h2) p c) (Ideal.ofBits .f32 0x00000000#32) = _
  rw [row_hAffine d hd h W b h1 h2 p]
  rfl

end Cert.LibDenseLayer

end
-- ==== Proof.MlpSpec.lean ====
/-
  The network both programs compute, as one function of one input row.

  Ten dense layers of widths 8 → 20 → 18 → 16 → 14 → 12 → 10 → 8 → 6 → 4 → 1: nine rectified affine maps, then a last
  affine map into a single entry and the logistic function 1 / (1 + e^(-z)) of it. Over the extended reals a change
  of float format is the identity, so the kernel's bf16 activations and weights are the f32 ones; the result array
  holds, at row r, the network's value at row r of the input.
-/
import proofs.«140085_j55508157334216_1_alg».proof.Proof.LibDenseLayer

noncomputable section

namespace Cert.Mlp

open Idealize.ShloMosaic Idealize.ShloMosaic.ValueIdx Cert.LibDenseLayer

/-- The network at one input row x of 8 entries: nine hidden layers, the output layer, the logistic function. -/
def net (x : Fin 8 → EReal)
    (W1 : Fin 8 → Fin 20 → EReal) (b1 : Fin 20 → EReal)
    (W2 : Fin 20 → Fin 18 → EReal) (b2 : Fin 18 → EReal)
    (W3 : Fin 18 → Fin 16 → EReal) (b3 : Fin 16 → EReal)
    (W4 : Fin 16 → Fin 14 → EReal) (b4 : Fin 14 → EReal)
    (W5 : Fin 14 → Fin 12 → EReal) (b5 : Fin 12 → EReal)
    (W6 : Fin 12 → Fin 10 → EReal) (b6 : Fin 10 → EReal)
    (W7 : Fin 10 → Fin 8 → EReal) (b7 : Fin 8 → EReal)
    (W8 : Fin 8 → Fin 6 → EReal) (b8 : Fin 6 → EReal)
    (W9 : Fin 6 → Fin 4 → EReal) (b9 : Fin 4 → EReal)
    (W10 : Fin 4 → Fin 1 → EReal) (b10 : Fin 1 → EReal) : EReal :=
  Ideal.logistic (affine (relu (affine (relu (affine (relu (affine (relu (affine (relu (affine (relu (affine (relu (affine (relu (affine (relu (affine x W1 b1)) W2 b2)) W3 b3)) W4 b4)) W5 b5)) W6 b6)) W7 b7)) W8 b8)) W9 b9)) W10 b10 0)

/-- The result array as one function of the 21 argument arrays: entry (r, 0) is the network at row r of x. -/
def G (x : (⟨2, ![1048576, 8]⟩ : Shape).Idx → EReal)
    (W1 : (⟨2, ![8, 20]⟩ : Shape).Idx → EReal) (b1 : (⟨1, ![20]⟩ : Shape).Idx → EReal)
    (W2 : (⟨2, ![20, 18]⟩ : Shape).Idx → EReal) (b2 : (⟨1, ![18]⟩ : Shape).Idx → EReal)
    (W3 : (⟨2, ![18, 16]⟩ : Shape).Idx → EReal) (b3 : (⟨1, ![16]⟩ : Shape).Idx → EReal)
    (W4 : (⟨2, ![16, 14]⟩ : Shape).Idx → EReal) (b4 : (⟨1, ![14]⟩ : Shape).Idx → EReal)
    (W5 : (⟨2, ![14, 12]⟩ : Shape).Idx → EReal) (b5 : (⟨1, ![12]⟩ : Shape).Idx → EReal)
    (W6 : (⟨2, ![12, 10]⟩ : Shape).Idx → EReal) (b6 : (⟨1, ![10]⟩ : Shape).Idx → EReal)
    (W7 : (⟨2, ![10, 8]⟩ : Shape).Idx → EReal) (b7 : (⟨1, ![8]⟩ : Shape).Idx → EReal)
    (W8 : (⟨2, ![8, 6]⟩ : Shape).Idx → EReal) (b8 : (⟨1, ![6]⟩ : Shape).Idx → EReal)
    (W9 : (⟨2, ![6, 4]⟩ : Shape).Idx → EReal) (b9 : (⟨1, ![4]⟩ : Shape).Idx → EReal)
    (W10 : (⟨2, ![4, 1]⟩ : Shape).Idx → EReal) (b10 : (⟨1, ![1]⟩ : Shape).Idx → EReal) :
    (⟨2, ![1048576, 1]⟩ : Shape).Idx → EReal :=
  fun i => net (row x (i 0))
    (mat W1) (vec b1)
    (mat W2) (vec b2)
    (mat W3) (vec b3)
    (mat W4) (vec b4)
    (mat W5) (vec b5)
    (mat W6) (vec b6)
    (mat W7) (vec b7)
    (mat W8) (vec b8)
    (mat W9) (vec b9)
    (mat W10) (vec b10)

/-- The float word 0x3F800000 denotes the real number 1. -/
theorem one_f32 : Ideal.ofBits .f32 0x3F800000#32 = 1 := by
  simp [Ideal.ofBits, Ideal.ieee, -EReal.coe_mul]; norm_num

/-- The host's spelling of the logistic function — 1 divided by 1 plus the exponential of the negation, the 1s float
    constants — is the logistic function on every extended real, the infinities included. -/
theorem host_logistic (z : EReal) :
    FloatOps.hostDivf (F := Ideal) (φ := .f32) (Ideal.ofBits .f32 0x3F800000#32)
      (FloatOps.addf (F := Ideal) (φ := .f32) (Ideal.ofBits .f32 0x3F800000#32)
        (FloatOps.hostUnary (F := Ideal) (φ := .f32) .exp (FloatOps.hostNegf (F := Ideal) (φ := .f32) z)))
      = Ideal.logistic z := by
  rw [one_f32]
  rfl

end Cert.Mlp

end
-- ==== Proof.RefValue.lean ====
/-
  The reference's result is the network, row by row.

  The reference applies, to the whole [1048576, 8] input at once, nine times "dot_general with the weights, add the
  broadcast bias, clamp at zero", then once more without the clamp, and then 1 / (1 + e^(-z)) spelt with a negation,
  an exponential, an addition and a division. Read at row p, each stage is the dense layer of row p of the stage
  before it, so entry (p, 0) of the result is the network at row p of the input.
-/
import proofs.«140085_j55508157334216_1_alg».proof.Proof.Gen.ReferenceIdeal.Read
import proofs.«140085_j55508157334216_1_alg».proof.Proof.MlpSpec

noncomputable section

namespace Cert.ReferenceIdeal.RefValue

open Cert.ReferenceIdeal Cert.ReferenceIdeal.Gen Cert.ReferenceIdeal.Read Idealize.ShloMosaic Idealize.ShloMosaic.ValueIdx
open Cert.LibPlainDot Cert.LibDenseLayer Cert.Mlp

variable (x0 : FVec Ideal S1048576x8 .f32)
    (x1 : FVec Ideal S8x20 .f32) (x2 : FVec Ideal S20 .f32)
    (x3 : FVec Ideal S20x18 .f32) (x4 : FVec Ideal S18 .f32)
    (x5 : FVec Ideal S18x16 .f32) (x6 : FVec Ideal S16 .f32)
    (x7 : FVec Ideal S16x14 .f32) (x8 : FVec Ideal S14 .f32)
    (x9 : FVec Ideal S14x12 .f32) (x10 : FVec Ideal S12 .f32)
    (x11 : FVec Ideal S12x10 .f32) (x12 : FVec Ideal S10 .f32)
    (x13 : FVec Ideal S10x8 .f32) (x14 : FVec Ideal S8 .f32)
    (x15 : FVec Ideal S8x6 .f32) (x16 : FVec Ideal S6 .f32)
    (x17 : FVec Ideal S6x4 .f32) (x18 : FVec Ideal S4 .f32)
    (x19 : FVec Ideal S4x1 .f32) (x20 : FVec Ideal S1 .f32)

/-- The dimension numbers of layer 1's product are the plain ones. -/
theorem plain1 : IsPlain dot_S1048576x8_S8x20_S1048576x20_1_0_0_1_n_n := ⟨rfl, rfl, rfl, rfl, rfl, rfl⟩

/-- Row p after layer 1 (8 → 20, rectified) is the rectified affine map of row p before it. -/
theorem row_layer1 (p : Fin 1048576) :
    row (val_main_v4 (F := Ideal) x0 x1 x2) p = relu (affine (row x0 p) (mat x1) (vec x2)) :=
  row_hHidden dot_S1048576x8_S8x20_S1048576x20_1_0_0_1_n_n plain1 x0 x1 x2 bcast_S20_S1x20_1 bcast_S1x20_S1048576x20_0_1 bcast_S_S1048576x20 p

/-- The dimension numbers of layer 2's product are the plain ones. -/
theorem plain2 : IsPlain dot_S1048576x20_S20x18_S1048576x18_1_0_0_1_n_n := ⟨rfl, rfl, rfl, rfl, rfl, rfl⟩

/-- Row p after layer 2 (20 → 18, rectified) is the rectified affine map of row p before it. -/
theorem row_layer2 (p : Fin 1048576) :
    row (val_main_v9 (F := Ideal) x0 x1 x2 x3 x4) p = relu (affine (row (val_main_v4 (F := Ideal) x0 x1 x2) p) (mat x3) (vec x4)) :=
  row_hHidden dot_S1048576x20_S20x18_S1048576x18_1_0_0_1_n_n plain2 (val_main_v4 (F := Ideal) x0 x1 x2) x3 x4 bcast_S18_S1x18_1 bcast_S1x18_S1048576x18_0_1 bcast_S_S1048576x18 p

/-- The dimension numbers of layer 3's product are the plain ones. -/
theorem plain3 : IsPlain dot_S1048576x18_S18x16_S1048576x16_1_0_0_1_n_n := ⟨rfl, rfl, rfl, rfl, rfl, rfl⟩

/-- Row p after layer 3 (18 → 16, rectified) is the rectified affine map of row p before it. -/
theorem row_layer3 (p : Fin 1048576) :
    row (val_main_v14 (F := Ideal) x0 x1 x2 x3 x4 x5 x6) p = relu (affine (row (val_main_v9 (F := Ideal) x0 x1 x2 x3 x4) p) (mat x5) (vec x6)) :=
  row_hHidden dot_S1048576x18_S18x16_S1048576x16_1_0_0_1_n_n plain3 (val_main_v9 (F := Ideal) x0 x1 x2 x3 x4) x5 x6 bcast_S16_S1x16_1 bcast_S1x16_S1048576x16_0_1 bcast_S_S1048576x16 p

/-- The dimension numbers of layer 4's product are the plain ones. -/
theorem plain4 : IsPlain dot_S1048576x16_S16x14_S1048576x14_1_0_0_1_n_n := ⟨rfl, rfl, rfl, rfl, rfl, rfl⟩

/-- Row p after layer 4 (16 → 14, rectified) is the rectified affine map of row p before it. -/
theorem row_layer4 (p : Fin 1048576) :
    row (val_main_v19 (F := Ideal) x0 x1 x2 x3 x4 x5 x6 x7 x8) p = relu (affine (row (val_main_v14 (F := Ideal) x0 x1 x2 x3 x4 x5 x6) p) (mat x7) (vec x8)) :=
  row_hHidden dot_S1048576x16_S16x14_S1048576x14_1_0_0_1_n_n plain4 (val_main_v14 (F := Ideal) x0 x1 x2 x3 x4 x5 x6) x7 x8 bcast_S14_S1x14_1 bcast_S1x14_S1048576x14_0_1 bcast_S_S1048576x14 p

/-- The dimension numbers of layer 5's product are the plain ones. -/
theorem plain5 : IsPlain dot_S1048576x14_S14x12_S1048576x12_1_0_0_1_n_n := ⟨rfl, rfl, rfl, rfl, rfl, rfl⟩

/-- Row p after layer 5 (14 → 12, rectified) is the rectified affine map of row p before it. -/
theorem row_layer5 (p : Fin 1048576) :
    row (val_main_v24 (F := Ideal) x0 x1 x2 x3 x4 x5 x6 x7 x8 x9 x10) p = relu (affine (row (val_main_v19 (F := Ideal) x0 x1 x2 x3 x4 x5 x6 x7 x8) p) (mat x9) (vec x10)) :=
  row_hHidden dot_S1048576x14_S14x12_S1048576x12_1_0_0_1_n_n plain5 (val_main_v19 (F := Ideal) x0 x1 x2 x3 x4 x5 x6 x7 x8) x9 x10 bcast_S12_S1x12_1 bcast_S1x12_S1048576x12_0_1 bcast_S_S1048576x12 p

/-- The dimension numbers of layer 6's product are the plain ones. -/
theorem plain6 : IsPlain dot_S1048576x12_S12x10_S1048576x10_1_0_0_1_n_n := ⟨rfl, rfl, rfl, rfl, rfl, rfl⟩

/-- Row p after layer 6 (12 → 10, rectified) is the rectified affine map of row p before it. -/
theorem row_layer6 (p : Fin 1048576) :
    row (val_main_v29 (F := Ideal) x0 x1 x2 x3 x4 x5 x6 x7 x8 x9 x10 x11 x12) p = relu (affine (row (val_main_v24 (F := Ideal) x0 x1 x2 x3 x4 x5 x6 x7 x8 x9 x10) p) (mat x11) (vec x12)) :=
  row_hHidden dot_S1048576x12_S12x10_S1048576x10_1_0_0_1_n_n plain6 (val_main_v24 (F := Ideal) x0 x1 x2 x3 x4 x5 x6 x7 x8 x9 x10) x11 x12 bcast_S10_S1x10_1 bcast_S1x10_S1048576x10_0_1 bcast_S_S1048576x10 p

/-- The dimension numbers of layer 7's product are the plain ones. -/
theorem plain7 : IsPlain dot_S1048576x10_S10x8_S1048576x8_1_0_0_1_n_n := ⟨rfl, rfl, rfl, rfl, rfl, rfl⟩

/-- Row p after layer 7 (10 → 8, rectified) is the rectified affine map of row p before it. -/
theorem row_layer7 (p : Fin 1048576) :
    row (val_main_v34 (F := Ideal) x0 x1 x2 x3 x4 x5 x6 x7 x8 x9 x10 x11 x12 x13 x14) p = relu (affine (row (val_main_v29 (F := Ideal) x0 x1 x2 x3 x4 x5 x6 x7 x8 x9 x10 x11 x12) p) (mat x13) (vec x14)) :=
  row_hHidden dot_S1048576x10_S10x8_S1048576x8_1_0_0_1_n_n plain7 (val_main_v29 (F := Ideal) x0 x1 x2 x3 x4 x5 x6 x7 x8 x9 x10 x11 x12) x13 x14 bcast_S8_S1x8_1 bcast_S1x8_S1048576x8_0_1 bcast_S_S1048576x8 p

/-- The dimension numbers of layer 8's product are the plain ones. -/
theorem plain8 : IsPlain dot_S1048576x8_S8x6_S1048576x6_1_0_0_1_n_n := ⟨rfl, rfl, rfl, rfl, rfl, rfl⟩

/-- Row p after layer 8 (8 → 6, rectified) is the rectified affine map of row p before it. -/
theorem row_layer8 (p : Fin 1048576) :
    row (val_main_v39 (F := Ideal) x0 x1 x2 x3 x4 x5 x6 x7 x8 x9 x10 x11 x12 x13 x14 x15 x16) p = relu (affine (row (val_main_v34 (F := Ideal) x0 x1 x2 x3 x4 x5 x6 x7 x8 x9 x10 x11 x12 x13 x14) p) (mat x15) (vec x16)) :=
  row_hHidden dot_S1048576x8_S8x6_S1048576x6_1_0_0_1_n_n plain8 (val_main_v34 (F := Ideal) x0 x1 x2 x3 x4 x5 x6 x7 x8 x9 x10 x11 x12 x13 x14) x15 x16 bcast_S6_S1x6_1 bcast_S1x6_S1048576x6_0_1 bcast_S_S1048576x6 p

/-- The dimension numbers of layer 9's product are the plain ones. -/
theorem plain9 : IsPlain dot_S1048576x6_S6x4_S1048576x4_1_0_0_1_n_n := ⟨rfl, rfl, rfl, rfl, rfl, rfl⟩

/-- Row p after layer 9 (6 → 4, rectified) is the rectified affine map of row p before it. -/
theorem row_layer9 (p : Fin 1048576) :
    row (val_main_v44 (F := Ideal) x0 x1 x2 x3 x4 x5 x6 x7 x8 x9 x10 x11 x12 x13 x14 x15 x16 x17 x18) p = relu (affine (row (val_main_v39 (F := Ideal) x0 x1 x2 x3 x4 x5 x6 x7 x8 x9 x10 x11 x12 x13 x14 x15 x16) p) (mat x17) (vec x18)) :=
  row_hHidden dot_S1048576x6_S6x4_S1048576x4_1_0_0_1_n_n plain9 (val_main_v39 (F := Ideal) x0 x1 x2 x3 x4 x5 x6 x7 x8 x9 x10 x11 x12 x13 x14 x15 x16) x17 x18 bcast_S4_S1x4_1 bcast_S1x4_S1048576x4_0_1 bcast_S_S1048576x4 p

/-- The dimension numbers of layer 10's product are the plain ones. -/
theorem plain10 : IsPlain dot_S1048576x4_S4x1_S1048576x1_1_0_0_1_n_n := ⟨rfl, rfl, rfl, rfl, rfl, rfl⟩

/-- Row p after the output layer (4 → 1, no rectifier) is the affine map of row p before it. -/
theorem row_layer10 (p : Fin 1048576) :
    row (val_main_v48 (F := Ideal) x0 x1 x2 x3 x4 x5 x6 x7 x8 x9 x10 x11 x12 x13 x14 x15 x16 x17 x18 x19 x20) p = affine (row (val_main_v44 (F := Ideal) x0 x1 x2 x3 x4 x5 x6 x7 x8 x9 x10 x11 x12 x13 x14 x15 x16 x17 x18) p) (mat x19) (vec x20) :=
  row_hAffine dot_S1048576x4_S4x1_S1048576x1_1_0_0_1_n_n plain10 (val_main_v44 (F := Ideal) x0 x1 x2 x3 x4 x5 x6 x7 x8 x9 x10 x11 x12 x13 x14 x15 x16 x17 x18) x19 x20 bcast_S1_S1x1_1 bcast_S1x1_S1048576x1_0_1 p

/-- The reference's result array is the network applied to each row of the input. -/
theorem ref_is_net :
    val_main_v54 (F := Ideal) x0 x1 x2 x3 x4 x5 x6 x7 x8 x9 x10 x11 x12 x13 x14 x15 x16 x17 x18 x19 x20 = G x0 x1 x2 x3 x4 x5 x6 x7 x8 x9 x10 x11 x12 x13 x14 x15 x16 x17 x18 x19 x20 := by
  funext i
  obtain ⟨p, q, rfl⟩ : ∃ (p : Fin 1048576) (q : Fin 1), i = ix2 p q := ⟨i 0, i 1, eq_ix2 i⟩
  obtain rfl : q = 0 := Subsingleton.elim q 0
  show FloatOps.hostDivf (F := Ideal) (φ := .f32) (Ideal.ofBits .f32 0x3F800000#32)
      (FloatOps.addf (F := Ideal) (φ := .f32) (Ideal.ofBits .f32 0x3F800000#32)
        (FloatOps.hostUnary (F := Ideal) (φ := .f32) .exp (FloatOps.hostNegf (F := Ideal) (φ := .f32)
          (row (val_main_v48 (F := Ideal) x0 x1 x2 x3 x4 x5 x6 x7 x8 x9 x10 x11 x12 x13 x14 x15 x16 x17 x18 x19 x20) p 0))))
    = net (row x0 p)
        (mat x1) (vec x2)
        (mat x3) (vec x4)
        (mat x5) (vec x6)
        (mat x7) (vec x8)
        (mat x9) (vec x10)
        (mat x11) (vec x12)
        (mat x13) (vec x14)
        (mat x15) (vec x16)
        (mat x17) (vec x18)
        (mat x19) (vec x20)
  rw [host_logistic,
    row_layer10 x0 x1 x2 x3 x4 x5 x6 x7 x8 x9 x10 x11 x12 x13 x14 x15 x16 x17 x18 x19 x20 p,
    row_layer9 x0 x1 x2 x3 x4 x5 x6 x7 x8 x9 x10 x11 x12 x13 x14 x15 x16 x17 x18 p,
    row_layer8 x0 x1 x2 x3 x4 x5 x6 x7 x8 x9 x10 x11 x12 x13 x14 x15 x16 p,
    row_layer7 x0 x1 x2 x3 x4 x5 x6 x7 x8 x9 x10 x11 x12 x13 x14 p,
    row_layer6 x0 x1 x2 x3 x4 x5 x6 x7 x8 x9 x10 x11 x12 p,
    row_layer5 x0 x1 x2 x3 x4 x5 x6 x7 x8 x9 x10 p,
    row_layer4 x0 x1 x2 x3 x4 x5 x6 x7 x8 p,
    row_layer3 x0 x1 x2 x3 x4 x5 x6 p,
    row_layer2 x0 x1 x2 x3 x4 p,
    row_layer1 x0 x1 x2 p]
  rfl

end Cert.ReferenceIdeal.RefValue

end
-- ==== Proof.KernelPayload.lean ====
/-
  What the kernel body stores, row by row of its block.

  On one block of 8192 input rows the body computes, layer after layer, "matrix-unit product with the weights narrowed
  to bf16, add the [1, M] bias row broadcast down the block, clamp at zero, narrow to bf16", nine times, then the
  product and bias once more and the logistic function. Over the extended reals the narrowings are the identity, so
  row p of each stage is the dense layer of row p of the stage before it, and entry (p, 0) of what is stored is the
  network at row p of the block. The weights are whole arrays; each bias is row 0 of a [1, M] array.
-/
import proofs.«140085_j55508157334216_1_alg».proof.Proof.Gen.KernelIdeal.Skeleton
import proofs.«140085_j55508157334216_1_alg».proof.Proof.MlpSpec

noncomputable section

namespace Cert.KernelIdeal.Payload

open Cert.KernelIdeal Cert.KernelIdeal.Gen Idealize.ShloMosaic Idealize.ShloMosaic.ValueIdx
open Cert.LibPlainDot Cert.LibDenseLayer Cert.Mlp

variable (x0 : FVec Ideal S8192x8 .f32)
    (x1 : FVec Ideal S8x20 .f32) (x2 : FVec Ideal S1x20 .f32)
    (x3 : FVec Ideal S20x18 .f32) (x4 : FVec Ideal S1x18 .f32)
    (x5 : FVec Ideal S18x16 .f32) (x6 : FVec Ideal S1x16 .f32)
    (x7 : FVec Ideal S16x14 .f32) (x8 : FVec Ideal S1x14 .f32)
    (x9 : FVec Ideal S14x12 .f32) (x10 : FVec Ideal S1x12 .f32)
    (x11 : FVec Ideal S12x10 .f32) (x12 : FVec Ideal S1x10 .f32)
    (x13 : FVec Ideal S10x8 .f32) (x14 : FVec Ideal S1x8 .f32)
    (x15 : FVec Ideal S8x6 .f32) (x16 : FVec Ideal S1x6 .f32)
    (x17 : FVec Ideal S6x4 .f32) (x18 : FVec Ideal S1x4 .f32)
    (x19 : FVec Ideal S4x1 .f32) (x20 : FVec Ideal S1x1 .f32)

/-- The dimension numbers of layer 1's matrix-unit product are the plain ones. -/
theorem plain1 : IsPlain dot_S8192x8_S8x20_S8192x20_1_0_0_1_n_n := ⟨rfl, rfl, rfl, rfl, rfl, rfl⟩

/-- The block's activations after layer 1 (8 → 20, rectified, narrowed to bf16). -/
def act1 : FVec Ideal S8192x20 .bf16 :=
  kHidden dot_S8192x8_S8x20_S8192x20_1_0_0_1_n_n (truncf .bf16 x0 bitsLt_bf16_f32) x1 x2 bitsLt_bf16_f32 shapeCasts_S1x20_S1x20 broadcasts_S1x20_S8192x20

/-- Row p of them is the rectified affine map of row p before the layer. -/
theorem row_act1 (p : Fin 8192) :
    row (act1 x0 x1 x2) p = relu (affine (row x0 p) (mat x1) (row x2 0)) :=
  row_kHidden dot_S8192x8_S8x20_S8192x20_1_0_0_1_n_n plain1 (truncf .bf16 x0 bitsLt_bf16_f32) x1 x2 bitsLt_bf16_f32 shapeCasts_S1x20_S1x20 broadcasts_S1x20_S8192x20 p

/-- The dimension numbers of layer 2's matrix-unit product are the plain ones. -/
theorem plain2 : IsPlain dot_S8192x20_S20x18_S8192x18_1_0_0_1_n_n := ⟨rfl, rfl, rfl, rfl, rfl, rfl⟩

/-- The block's activations after layer 2 (20 → 18, rectified, narrowed to bf16). -/
def act2 : FVec Ideal S8192x18 .bf16 :=
  kHidden dot_S8192x20_S20x18_S8192x18_1_0_0_1_n_n (act1 x0 x1 x2) x3 x4 bitsLt_bf16_f32 shapeCasts_S1x18_S1x18 broadcasts_S1x18_S8192x18

/-- Row p of them is the rectified affine map of row p before the layer. -/
theorem row_act2 (p : Fin 8192) :
    row (act2 x0 x1 x2 x3 x4) p = relu (affine (row (act1 x0 x1 x2) p) (mat x3) (row x4 0)) :=
  row_kHidden dot_S8192x20_S20x18_S8192x18_1_0_0_1_n_n plain2 (act1 x0 x1 x2) x3 x4 bitsLt_bf16_f32 shapeCasts_S1x18_S1x18 broadcasts_S1x18_S8192x18 p

/-- The dimension numbers of layer 3's matrix-unit product are the plain ones. -/
theorem plain3 : IsPlain dot_S8192x18_S18x16_S8192x16_1_0_0_1_n_n := ⟨rfl, rfl, rfl, rfl, rfl, rfl⟩

/-- The block's activations after layer 3 (18 → 16, rectified, narrowed to bf16). -/
def act3 : FVec Ideal S8192x16 .bf16 :=
  kHidden dot_S8192x18_S18x16_S8192x16_1_0_0_1_n_n (act2 x0 x1 x2 x3 x4) x5 x6 bitsLt_bf16_f32 shapeCasts_S1x16_S1x16 broadcasts_S1x16_S8192x16

/-- Row p of them is the rectified affine map of row p before the layer. -/
theorem row_act3 (p : Fin 8192) :
    row (act3 x0 x1 x2 x3 x4 x5 x6) p = relu (affine (row (act2 x0 x1 x2 x3 x4) p) (mat x5) (row x6 0)) :=
  row_kHidden dot_S8192x18_S18x16_S8192x16_1_0_0_1_n_n plain3 (act2 x0 x1 x2 x3 x4) x5 x6 bitsLt_bf16_f32 shapeCasts_S1x16_S1x16 broadcasts_S1x16_S8192x16 p

/-- The dimension numbers of layer 4's matrix-unit product are the plain ones. -/
theorem plain4 : IsPlain dot_S8192x16_S16x14_S8192x14_1_0_0_1_n_n := ⟨rfl, rfl, rfl, rfl, rfl, rfl⟩

/-- The block's activations after layer 4 (16 → 14, rectified, narrowed to bf16). -/
def act4 : FVec Ideal S8192x14 .bf16 :=
  kHidden dot_S8192x16_S16x14_S8192x14_1_0_0_1_n_n (act3 x0 x1 x2 x3 x4 x5 x6) x7 x8 bitsLt_bf16_f32 shapeCasts_S1x14_S1x14 broadcasts_S1x14_S8192x14

/-- Row p of them is the rectified affine map of row p before the layer. -/
theorem row_act4 (p : Fin 8192) :
    row (act4 x0 x1 x2 x3 x4 x5 x6 x7 x8) p = relu (affine (row (act3 x0 x1 x2 x3 x4 x5 x6) p) (mat x7) (row x8 0)) :=
  row_kHidden dot_S8192x16_S16x14_S8192x14_1_0_0_1_n_n plain4 (act3 x0 x1 x2 x3 x4 x5 x6) x7 x8 bitsLt_bf16_f32 shapeCasts_S1x14_S1x14 broadcasts_S1x14_S8192x14 p

/-- The dimension numbers of layer 5's matrix-unit product are the plain ones. -/
theorem plain5 : IsPlain dot_S8192x14_S14x12_S8192x12_1_0_0_1_n_n := ⟨rfl, rfl, rfl, rfl, rfl, rfl⟩

/-- The block's activations after layer 5 (14 → 12, rectified, narrowed to bf16). -/
def act5 : FVec Ideal S8192x12 .bf16 :=
  kHidden dot_S8192x14_S14x12_S8192x12_1_0_0_1_n_n (act4 x0 x1 x2 x3 x4 x5 x6 x7 x8) x9 x10 bitsLt_bf16_f32 shapeCasts_S1x12_S1x12 broadcasts_S1x12_S8192x12

/-- Row p of them is the rectified affine map of row p before the layer. -/
theorem row_act5 (p : Fin 8192) :
    row (act5 x0 x1 x2 x3 x4 x5 x6 x7 x8 x9 x10) p = relu (affine (row (act4 x0 x1 x2 x3 x4 x5 x6 x7 x8) p) (mat x9) (row x10 0)) :=
  row_kHidden dot_S8192x14_S14x12_S8192x12_1_0_0_1_n_n plain5 (act4 x0 x1 x2 x3 x4 x5 x6 x7 x8) x9 x10 bitsLt_bf16_f32 shapeCasts_S1x12_S1x12 broadcasts_S1x12_S8192x12 p

/-- The dimension numbers of layer 6's matrix-unit product are the plain ones. -/
theorem plain6 : IsPlain dot_S8192x12_S12x10_S8192x10_1_0_0_1_n_n := ⟨rfl, rfl, rfl, rfl, rfl, rfl⟩

/-- The block's activations after layer 6 (12 → 10, rectified, narrowed to bf16). -/
def act6 : FVec Ideal S8192x10 .bf16 :=
  kHidden dot_S8192x12_S12x10_S8192x10_1_0_0_1_n_n (act5 x0 x1 x2 x3 x4 x5 x6 x7 x8 x9 x10) x11 x12 bitsLt_bf16_f32 shapeCasts_S1x10_S1x10 broadcasts_S1x10_S8192x10

/-- Row p of them is the rectified affine map of row p before the layer. -/
theorem row_act6 (p : Fin 8192) :
    row (act6 x0 x1 x2 x3 x4 x5 x6 x7 x8 x9 x10 x11 x12) p = relu (affine (row (act5 x0 x1 x2 x3 x4 x5 x6 x7 x8 x9 x10) p) (mat x11) (row x12 0)) :=
  row_kHidden dot_S8192x12_S12x10_S8192x10_1_0_0_1_n_n plain6 (act5 x0 x1 x2 x3 x4 x5 x6 x7 x8 x9 x10) x11 x12 bitsLt_bf16_f32 shapeCasts_S1x10_S1x10 broadcasts_S1x10_S8192x10 p

/-- The dimension numbers of layer 7's matrix-unit product are the plain ones. -/
theorem plain7 : IsPlain dot_S8192x10_S10x8_S8192x8_1_0_0_1_n_n := ⟨rfl, rfl, rfl, rfl, rfl, rfl⟩

/-- The block's activations after layer 7 (10 → 8, rectified, narrowed to bf16). -/
def act7 : FVec Ideal S8192x8 .bf16 :=
  kHidden dot_S8192x10_S10x8_S8192x8_1_0_0_1_n_n (act6 x0 x1 x2 x3 x4 x5 x6 x7 x8 x9 x10 x11 x12) x13 x14 bitsLt_bf16_f32 shapeCasts_S1x8_S1x8 broadcasts_S1x8_S8192x8

/-- Row p of them is the rectified affine map of row p before the layer. -/
theorem row_act7 (p : Fin 8192) :
    row (act7 x0 x1 x2 x3 x4 x5 x6 x7 x8 x9 x10 x11 x12 x13 x14) p = relu (affine (row (act6 x0 x1 x2 x3 x4 x5 x6 x7 x8 x9 x10 x11 x12) p) (mat x13) (row x14 0)) :=
  row_kHidden dot_S8192x10_S10x8_S8192x8_1_0_0_1_n_n plain7 (act6 x0 x1 x2 x3 x4 x5 x6 x7 x8 x9 x10 x11 x12) x13 x14 bitsLt_bf16_f32 shapeCasts_S1x8_S1x8 broadcasts_S1x8_S8192x8 p

/-- The dimension numbers of layer 8's matrix-unit product are the plain ones. -/
theorem plain8 : IsPlain dot_S8192x8_S8x6_S8192x6_1_0_0_1_n_n := ⟨rfl, rfl, rfl, rfl, rfl, rfl⟩

/-- The block's activations after layer 8 (8 → 6, rectified, narrowed to bf16). -/
def act8 : FVec Ideal S8192x6 .bf16 :=
  kHidden dot_S8192x8_S8x6_S8192x6_1_0_0_1_n_n (act7 x0 x1 x2 x3 x4 x5 x6 x7 x8 x9 x10 x11 x12 x13 x14) x15 x16 bitsLt_bf16_f32 shapeCasts_S1x6_S1x6 broadcasts_S1x6_S8192x6

/-- Row p of them is the rectified affine map of row p before the layer. -/
theorem row_act8 (p : Fin 8192) :
    row (act8 x0 x1 x2 x3 x4 x5 x6 x7 x8 x9 x10 x11 x12 x13 x14 x15 x16) p = relu (affine (row (act7 x0 x1 x2 x3 x4 x5 x6 x7 x8 x9 x10 x11 x12 x13 x14) p) (mat x15) (row x16 0)) :=
  row_kHidden dot_S8192x8_S8x6_S8192x6_1_0_0_1_n_n plain8 (act7 x0 x1 x2 x3 x4 x5 x6 x7 x8 x9 x10 x11 x12 x13 x14) x15 x16 bitsLt_bf16_f32 shapeCasts_S1x6_S1x6 broadcasts_S1x6_S8192x6 p

/-- The dimension numbers of layer 9's matrix-unit product are the plain ones. -/
theorem plain9 : IsPlain dot_S8192x6_S6x4_S8192x4_1_0_0_1_n_n := ⟨rfl, rfl, rfl, rfl, rfl, rfl⟩

/-- The block's activations after layer 9 (6 → 4, rectified, narrowed to bf16). -/
def act9 : FVec Ideal S8192x4 .bf16 :=
  kHidden dot_S8192x6_S6x4_S8192x4_1_0_0_1_n_n (act8 x0 x1 x2 x3 x4 x5 x6 x7 x8 x9 x10 x11 x12 x13 x14 x15 x16) x17 x18 bitsLt_bf16_f32 shapeCasts_S1x4_S1x4 broadcasts_S1x4_S8192x4

/-- Row p of them is the rectified affine map of row p before the layer. -/
theorem row_act9 (p : Fin 8192) :
    row (act9 x0 x1 x2 x3 x4 x5 x6 x7 x8 x9 x10 x11 x12 x13 x14 x15 x16 x17 x18) p = relu (affine (row (act8 x0 x1 x2 x3 x4 x5 x6 x7 x8 x9 x10 x11 x12 x13 x14 x15 x16) p) (mat x17) (row x18 0)) :=
  row_kHidden dot_S8192x6_S6x4_S8192x4_1_0_0_1_n_n plain9 (act8 x0 x1 x2 x3 x4 x5 x6 x7 x8 x9 x10 x11 x12 x13 x14 x15 x16) x17 x18 bitsLt_bf16_f32 shapeCasts_S1x4_S1x4 broadcasts_S1x4_S8192x4 p

/-- The dimension numbers of layer 10's matrix-unit product are the plain ones. -/
theorem plain10 : IsPlain dot_S8192x4_S4x1_S8192x1_1_0_0_1_n_n := ⟨rfl, rfl, rfl, rfl, rfl, rfl⟩

/-- The block's pre-activation of the output layer (4 → 1, no rectifier). -/
def pre10 : FVec Ideal S8192x1 .f32 :=
  kAffine dot_S8192x4_S4x1_S8192x1_1_0_0_1_n_n (act9 x0 x1 x2 x3 x4 x5 x6 x7 x8 x9 x10 x11 x12 x13 x14 x15 x16 x17 x18) x19 x20 bitsLt_bf16_f32 shapeCasts_S1x1_S1x1 broadcasts_S1x1_S8192x1

/-- Row p of it is the affine map of row p before the layer. -/
theorem row_pre10 (p : Fin 8192) :
    row (pre10 x0 x1 x2 x3 x4 x5 x6 x7 x8 x9 x10 x11 x12 x13 x14 x15 x16 x17 x18 x19 x20) p = affine (row (act9 x0 x1 x2 x3 x4 x5 x6 x7 x8 x9 x10 x11 x12 x13 x14 x15 x16 x17 x18) p) (mat x19) (row x20 0) :=
  row_kAffine dot_S8192x4_S4x1_S8192x1_1_0_0_1_n_n plain10 (act9 x0 x1 x2 x3 x4 x5 x6 x7 x8 x9 x10 x11 x12 x13 x14 x15 x16 x17 x18) x19 x20 bitsLt_bf16_f32 shapeCasts_S1x1_S1x1 broadcasts_S1x1_S8192x1 p

/-- The body's stored value is the logistic function of the output layer's pre-activation: the four chunks the
    printed body is cut into, composed, are the ten stages above. -/
theorem payload_eq :
    k0_pay1 (F := Ideal) (k0_pay4 (k0_pay2 x0 x1 x2 x3 x4 x5 x6) (k0_pay3 x7) x8 x9 x10 x11 x12 x13 x14) x15 x16 x17 x18 x19 x20
      = logistic (pre10 x0 x1 x2 x3 x4 x5 x6 x7 x8 x9 x10 x11 x12 x13 x14 x15 x16 x17 x18 x19 x20) := rfl

/-- Entry (p, 0) of the body's stored value is the network at row p of the block. -/
theorem payload_row (p : Fin 8192) :
    k0_pay1 (F := Ideal) (k0_pay4 (k0_pay2 x0 x1 x2 x3 x4 x5 x6) (k0_pay3 x7) x8 x9 x10 x11 x12 x13 x14) x15 x16 x17 x18 x19 x20 (ix2 p 0)
      = net (row x0 p)
          (mat x1) (row x2 0)
          (mat x3) (row x4 0)
          (mat x5) (row x6 0)
          (mat x7) (row x8 0)
          (mat x9) (row x10 0)
          (mat x11) (row x12 0)
          (mat x13) (row x14 0)
          (mat x15) (row x16 0)
          (mat x17) (row x18 0)
          (mat x19) (row x20 0) := by
  rw [payload_eq]
  show Ideal.logistic (row (pre10 x0 x1 x2 x3 x4 x5 x6 x7 x8 x9 x10 x11 x12 x13 x14 x15 x16 x17 x18 x19 x20) p 0) = _
  rw [row_pre10 x0 x1 x2 x3 x4 x5 x6 x7 x8 x9 x10 x11 x12 x13 x14 x15 x16 x17 x18 x19 x20 p,
    row_act9 x0 x1 x2 x3 x4 x5 x6 x7 x8 x9 x10 x11 x12 x13 x14 x15 x16 x17 x18 p,
    row_act8 x0 x1 x2 x3 x4 x5 x6 x7 x8 x9 x10 x11 x12 x13 x14 x15 x16 p,
    row_act7 x0 x1 x2 x3 x4 x5 x6 x7 x8 x9 x10 x11 x12 x13 x14 p,
    row_act6 x0 x1 x2 x3 x4 x5 x6 x7 x8 x9 x10 x11 x12 p,
    row_act5 x0 x1 x2 x3 x4 x5 x6 x7 x8 x9 x10 p,
    row_act4 x0 x1 x2 x3 x4 x5 x6 x7 x8 p,
    row_act3 x0 x1 x2 x3 x4 x5 x6 p,
    row_act2 x0 x1 x2 x3 x4 p,
    row_act1 x0 x1 x2 p]
  rfl

end Cert.KernelIdeal.Payload

end
-- ==== Proof.KernelValue.lean ====
/-
  From blocks to the array: the kernel's result array is the network applied to each row of the input.

  The grid has 128 points; point t stages rows 8192·t … 8192·t + 8191 of the input, the whole of every weight array and
  of every [1, M] bias array (each the host's reshape of an [M] bias), and writes back block t of the [1048576, 1]
  result. What it writes at row p of the block is the network at row p of the input block, that is at row
  8192·t + p of the input: block t of ONE function of the arguments. The 128 blocks tile the result array, so
  after the run the array is that function.
-/
import proofs.«140085_j55508157334216_1_alg».proof.Proof.Gen.KernelIdeal.Value
import proofs.«140085_j55508157334216_1_alg».proof.Proof.KernelPayload
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx Cert.LibDenseLayer Cert.Mlp Cert.KernelIdeal.Payload

variable (m : (ℓ : Loc nD τ sig) → Buf (Elt Ideal) ℓ) (ρ : Dev nD → PrngReg)

/-! ## Where each window's block sits -/

theorem zero_offsets : (![0, 0] : Fin 2 → Nat) = fun _ => 0 := funext fun a => by fin_cases a <;> rfl

/-- The input window moves with the output window, one block of 8192 rows per grid point, and keeps all 8 columns;
    the output window's column block is always 0 (decided over the 128 grid points). -/
theorem idx_x : ∀ t : Fin cfg0.N, win0_0.index t (0 : Fin 2) = win0_21.index t (0 : Fin 2)
    ∧ win0_0.index t (1 : Fin 2) = 0 ∧ win0_21.index t (1 : Fin 2) = 0 :=
  (by decide +kernel : ∀ t : Fin grid0.N, _)

/-- Window 1 stages block (0, 0) — its whole array — at every grid point (decided). -/
theorem idx_w1 : ∀ t : Fin cfg0.N, win0_1.index t (0 : Fin 2) = 0 ∧ win0_1.index t (1 : Fin 2) = 0 :=
  (by decide +kernel : ∀ t : Fin grid0.N, _)

/-- Window 2 stages block (0, 0) — its whole array — at every grid point (decided). -/
theorem idx_w2 : ∀ t : Fin cfg0.N, win0_2.index t (0 : Fin 2) = 0 ∧ win0_2.index t (1 : Fin 2) = 0 :=
  (by decide +kernel : ∀ t : Fin grid0.N, _)

/-- Window 3 stages block (0, 0) — its whole array — at every grid point (decided). -/
theorem idx_w3 : ∀ t : Fin cfg0.N, win0_3.index t (0 : Fin 2) = 0 ∧ win0_3.index t (1 : Fin 2) = 0 :=
  (by decide +kernel : ∀ t : Fin grid0.N, _)

/-- Window 4 stages block (0, 0) — its whole array — at every grid point (decided). -/
theorem idx_w4 : ∀ t : Fin cfg0.N, win0_4.index t (0 : Fin 2) = 0 ∧ win0_4.index t (1 : Fin 2) = 0 :=
  (by decide +kernel : ∀ t : Fin grid0.N, _)

/-- Window 5 stages block (0, 0) — its whole array — at every grid point (decided). -/
theorem idx_w5 : ∀ t : Fin cfg0.N, win0_5.index t (0 : Fin 2) = 0 ∧ win0_5.index t (1 : Fin 2) = 0 :=
  (by decide +kernel : ∀ t : Fin grid0.N, _)

/-- Window 6 stages block (0, 0) — its whole array — at every grid point (decided). -/
theorem idx_w6 : ∀ t : Fin cfg0.N, win0_6.index t (0 : Fin 2) = 0 ∧ win0_6.index t (1 : Fin 2) = 0 :=
  (by decide +kernel : ∀ t : Fin grid0.N, _)

/-- Window 7 stages block (0, 0) — its whole array — at every grid point (decided). -/
theorem idx_w7 : ∀ t : Fin cfg0.N, win0_7.index t (0 : Fin 2) = 0 ∧ win0_7.index t (1 : Fin 2) = 0 :=
  (by decide +kernel : ∀ t : Fin grid0.N, _)

/-- Window 8 stages block (0, 0) — its whole array — at every grid point (decided). -/
theorem idx_w8 : ∀ t : Fin cfg0.N, win0_8.index t (0 : Fin 2) = 0 ∧ win0_8.index t (1 : Fin 2) = 0 :=
  (by decide +kernel : ∀ t : Fin grid0.N, _)

/-- Window 9 stages block (0, 0) — its whole array — at every grid point (decided). -/
theorem idx_w9 : ∀ t : Fin cfg0.N, win0_9.index t (0 : Fin 2) = 0 ∧ win0_9.index t (1 : Fin 2) = 0 :=
  (by decide +kernel : ∀ t : Fin grid0.N, _)

/-- Window 10 stages block (0, 0) — its whole array — at every grid point (decided). -/
theorem idx_w10 : ∀ t : Fin cfg0.N, win0_10.index t (0 : Fin 2) = 0 ∧ win0_10.index t (1 : Fin 2) = 0 :=
  (by decide +kernel : ∀ t : Fin grid0.N, _)

/-- Window 11 stages block (0, 0) — its whole array — at every grid point (decided). -/
theorem idx_w11 : ∀ t : Fin cfg0.N, win0_11.index t (0 : Fin 2) = 0 ∧ win0_11.index t (1 : Fin 2) = 0 :=
  (by decide +kernel : ∀ t : Fin grid0.N, _)

/-- Window 12 stages block (0, 0) — its whole array — at every grid point (decided). -/
theorem idx_w12 : ∀ t : Fin cfg0.N, win0_12.index t (0 : Fin 2) = 0 ∧ win0_12.index t (1 : Fin 2) = 0 :=
  (by decide +kernel : ∀ t : Fin grid0.N, _)

/-- Window 13 stages block (0, 0) — its whole array — at every grid point (decided). -/
theorem idx_w13 : ∀ t : Fin cfg0.N, win0_13.index t (0 : Fin 2) = 0 ∧ win0_13.index t (1 : Fin 2) = 0 :=
  (by decide +kernel : ∀ t : Fin grid0.N, _)

/-- Window 14 stages block (0, 0) — its whole array — at every grid point (decided). -/
theorem idx_w14 : ∀ t : Fin cfg0.N, win0_14.index t (0 : Fin 2) = 0 ∧ win0_14.index t (1 : Fin 2) = 0 :=
  (by decide +kernel : ∀ t : Fin grid0.N, _)

/-- Window 15 stages block (0, 0) — its whole array — at every grid point (decided). -/
theorem idx_w15 : ∀ t : Fin cfg0.N, win0_15.index t (0 : Fin 2) = 0 ∧ win0_15.index t (1 : Fin 2) = 0 :=
  (by decide +kernel : ∀ t : Fin grid0.N, _)

/-- Window 16 stages block (0, 0) — its whole array — at every grid point (decided). -/
theorem idx_w16 : ∀ t : Fin cfg0.N, win0_16.index t (0 : Fin 2) = 0 ∧ win0_16.index t (1 : Fin 2) = 0 :=
  (by decide +kernel : ∀ t : Fin grid0.N, _)

/-- Window 17 stages block (0, 0) — its whole array — at every grid point (decided). -/
theorem idx_w17 : ∀ t : Fin cfg0.N, win0_17.index t (0 : Fin 2) = 0 ∧ win0_17.index t (1 : Fin 2) = 0 :=
  (by decide +kernel : ∀ t : Fin grid0.N, _)

/-- Window 18 stages block (0, 0) — its whole array — at every grid point (decided). -/
theorem idx_w18 : ∀ t : Fin cfg0.N, win0_18.index t (0 : Fin 2) = 0 ∧ win0_18.index t (1 : Fin 2) = 0 :=
  (by decide +kernel : ∀ t : Fin grid0.N, _)

/-- Window 19 stages block (0, 0) — its whole array — at every grid point (decided). -/
theorem idx_w19 : ∀ t : Fin cfg0.N, win0_19.index t (0 : Fin 2) = 0 ∧ win0_19.index t (1 : Fin 2) = 0 :=
  (by decide +kernel : ∀ t : Fin grid0.N, _)

/-- Window 20 stages block (0, 0) — its whole array — at every grid point (decided). -/
theorem idx_w20 : ∀ t : Fin cfg0.N, win0_20.index t (0 : Fin 2) = 0 ∧ win0_20.index t (1 : Fin 2) = 0 :=
  (by decide +kernel : ∀ t : Fin grid0.N, _)

/-! ## Each block, read as rows of the argument arrays -/

/-- Row p of the input block at point t is row (block t's first row + p) of the input array. -/
theorem blk_x (c : Dev nD) (t : Fin cfg0.N) (p : Fin 8192) :
    row (n := 8192) (K := 8) (iblk m c 0 t) p
      = row (n := 1048576) (K := 8) (m ((c : Thread nD τ).loc main_arg0)) ((((cfg0.win 21).blk t).view.emb (ix2 (n0 := 8192) (n1 := 1) p 0)) 0) := by
  funext k
  show V m c main_arg0 (((cfg0.win 0).blk t).view.emb (ix2 (n0 := 8192) (n1 := 8) p k))
    = (m ((c : Thread nD τ).loc main_arg0)) (ix2 (n0 := 1048576) (n1 := 8) ((((cfg0.win 21).blk t).view.emb (ix2 (n0 := 8192) (n1 := 1) p 0)) 0) k)
  rw [V_main_arg0]
  refine congrArg _ (funext fun a => Fin.ext ?_)
  obtain ⟨e0, e1, e2⟩ := idx_x t
  match a with
  | ⟨0, _⟩ => show win0_0.index t (0 : Fin 2) * 8192 + 1 * p.val = win0_21.index t (0 : Fin 2) * 8192 + 1 * p.val; omega
  | ⟨1, _⟩ => show win0_0.index t (1 : Fin 2) * 8 + 1 * k.val = k.val; omega

/-- Layer 1's weight block at any point is the whole weight array. -/
theorem blk_W1 (c : Dev nD) (t : Fin cfg0.N) :
    mat (K := 8) (M := 20) (iblk m c 1 t) = mat (K := 8) (M := 20) (m ((c : Thread nD τ).loc main_arg1)) := by
  funext k q
  show V m c main_arg1 (((cfg0.win 1).blk t).view.emb (ix2 (n0 := 8) (n1 := 20) k q)) = (m ((c : Thread nD τ).loc main_arg1)) (ix2 (n0 := 8) (n1 := 20) k q)
  rw [V_main_arg1]
  refine congrArg _ (funext fun a => Fin.ext ?_)
  obtain ⟨e0, e1⟩ := idx_w1 t
  match a with
  | ⟨0, _⟩ => show win0_1.index t (0 : Fin 2) * 8 + 1 * k.val = k.val; omega
  | ⟨1, _⟩ => show win0_1.index t (1 : Fin 2) * 20 + 1 * q.val = q.val; omega

/-- The array layer 1's bias window stages is the [20] bias reshaped to [1, 20] by the host before the launch. -/
theorem V_bias1 (c : Dev nD) :
    (V m c main_v0 : S1x20.Idx → EReal) = shapeCast S1x20 (m ((c : Thread nD τ).loc main_arg2)) shapeCasts_S20_S1x20 := by
  dsimp only [Gen.V, Gen.hostOps0]; after_results; rfl

/-- Row 0 of layer 1's bias block at any point is the bias vector. -/
theorem blk_b1 (c : Dev nD) (t : Fin cfg0.N) :
    row (n := 1) (K := 20) (iblk m c 2 t) 0 = vec (M := 20) (m ((c : Thread nD τ).loc main_arg2)) := by
  refine Eq.trans ?_ (row_shapeCast_vec (M := 20) (m ((c : Thread nD τ).loc main_arg2)) shapeCasts_S20_S1x20)
  funext q
  show V m c main_v0 (((cfg0.win 2).blk t).view.emb (ix2 (n0 := 1) (n1 := 20) 0 q))
    = shapeCast S1x20 (m ((c : Thread nD τ).loc main_arg2)) shapeCasts_S20_S1x20 (ix2 (n0 := 1) (n1 := 20) 0 q)
  rw [V_bias1]
  refine congrArg _ (funext fun a => Fin.ext ?_)
  obtain ⟨e0, e1⟩ := idx_w2 t
  match a with
  | ⟨0, _⟩ => show win0_2.index t (0 : Fin 2) * 1 + 1 * 0 = 0; omega
  | ⟨1, _⟩ => show win0_2.index t (1 : Fin 2) * 20 + 1 * q.val = q.val; omega

/-- Layer 2's weight block at any point is the whole weight array. -/
theorem blk_W2 (c : Dev nD) (t : Fin cfg0.N) :
    mat (K := 20) (M := 18) (iblk m c 3 t) = mat (K := 20) (M := 18) (m ((c : Thread nD τ).loc main_arg3)) := by
  funext k q
  show V m c main_arg3 (((cfg0.win 3).blk t).view.emb (ix2 (n0 := 20) (n1 := 18) k q)) = (m ((c : Thread nD τ).loc main_arg3)) (ix2 (n0 := 20) (n1 := 18) k q)
  rw [V_main_arg3]
  refine congrArg _ (funext fun a => Fin.ext ?_)
  obtain ⟨e0, e1⟩ := idx_w3 t
  match a with
  | ⟨0, _⟩ => show win0_3.index t (0 : Fin 2) * 20 + 1 * k.val = k.val; omega
  | ⟨1, _⟩ => show win0_3.index t (1 : Fin 2) * 18 + 1 * q.val = q.val; omega

/-- The array layer 2's bias window stages is the [18] bias reshaped to [1, 18] by the host before the launch. -/
theorem V_bias2 (c : Dev nD) :
    (V m c main_v1 : S1x18.Idx → EReal) = shapeCast S1x18 (m ((c : Thread nD τ).loc main_arg4)) shapeCasts_S18_S1x18 := by
  dsimp only [Gen.V, Gen.hostOps0]; after_results; rfl

/-- Row 0 of layer 2's bias block at any point is the bias vector. -/
theorem blk_b2 (c : Dev nD) (t : Fin cfg0.N) :
    row (n := 1) (K := 18) (iblk m c 4 t) 0 = vec (M := 18) (m ((c : Thread nD τ).loc main_arg4)) := by
  refine Eq.trans ?_ (row_shapeCast_vec (M := 18) (m ((c : Thread nD τ).loc main_arg4)) shapeCasts_S18_S1x18)
  funext q
  show V m c main_v1 (((cfg0.win 4).blk t).view.emb (ix2 (n0 := 1) (n1 := 18) 0 q))
    = shapeCast S1x18 (m ((c : Thread nD τ).loc main_arg4)) shapeCasts_S18_S1x18 (ix2 (n0 := 1) (n1 := 18) 0 q)
  rw [V_bias2]
  refine congrArg _ (funext fun a => Fin.ext ?_)
  obtain ⟨e0, e1⟩ := idx_w4 t
  match a with
  | ⟨0, _⟩ => show win0_4.index t (0 : Fin 2) * 1 + 1 * 0 = 0; omega
  | ⟨1, _⟩ => show win0_4.index t (1 : Fin 2) * 18 + 1 * q.val = q.val; omega

/-- Layer 3's weight block at any point is the whole weight array. -/
theorem blk_W3 (c : Dev nD) (t : Fin cfg0.N) :
    mat (K := 18) (M := 16) (iblk m c 5 t) = mat (K := 18) (M := 16) (m ((c : Thread nD τ).loc main_arg5)) := by
  funext k q
  show V m c main_arg5 (((cfg0.win 5).blk t).view.emb (ix2 (n0 := 18) (n1 := 16) k q)) = (m ((c : Thread nD τ).loc main_arg5)) (ix2 (n0 := 18) (n1 := 16) k q)
  rw [V_main_arg5]
  refine congrArg _ (funext fun a => Fin.ext ?_)
  obtain ⟨e0, e1⟩ := idx_w5 t
  match a with
  | ⟨0, _⟩ => show win0_5.index t (0 : Fin 2) * 18 + 1 * k.val = k.val; omega
  | ⟨1, _⟩ => show win0_5.index t (1 : Fin 2) * 16 + 1 * q.val = q.val; omega

/-- The array layer 3's bias window stages is the [16] bias reshaped to [1, 16] by the host before the launch. -/
theorem V_bias3 (c : Dev nD) :
    (V m c main_v2 : S1x16.Idx → EReal) = shapeCast S1x16 (m ((c : Thread nD τ).loc main_arg6)) shapeCasts_S16_S1x16 := by
  dsimp only [Gen.V, Gen.hostOps0]; after_results; rfl

/-- Row 0 of layer 3's bias block at any point is the bias vector. -/
theorem blk_b3 (c : Dev nD) (t : Fin cfg0.N) :
    row (n := 1) (K := 16) (iblk m c 6 t) 0 = vec (M := 16) (m ((c : Thread nD τ).loc main_arg6)) := by
  refine Eq.trans ?_ (row_shapeCast_vec (M := 16) (m ((c : Thread nD τ).loc main_arg6)) shapeCasts_S16_S1x16)
  funext q
  show V m c main_v2 (((cfg0.win 6).blk t).view.emb (ix2 (n0 := 1) (n1 := 16) 0 q))
    = shapeCast S1x16 (m ((c : Thread nD τ).loc main_arg6)) shapeCasts_S16_S1x16 (ix2 (n0 := 1) (n1 := 16) 0 q)
  rw [V_bias3]
  refine congrArg _ (funext fun a => Fin.ext ?_)
  obtain ⟨e0, e1⟩ := idx_w6 t
  match a with
  | ⟨0, _⟩ => show win0_6.index t (0 : Fin 2) * 1 + 1 * 0 = 0; omega
  | ⟨1, _⟩ => show win0_6.index t (1 : Fin 2) * 16 + 1 * q.val = q.val; omega

/-- Layer 4's weight block at any point is the whole weight array. -/
theorem blk_W4 (c : Dev nD) (t : Fin cfg0.N) :
    mat (K := 16) (M := 14) (iblk m c 7 t) = mat (K := 16) (M := 14) (m ((c : Thread nD τ).loc main_arg7)) := by
  funext k q
  show V m c main_arg7 (((cfg0.win 7).blk t).view.emb (ix2 (n0 := 16) (n1 := 14) k q)) = (m ((c : Thread nD τ).loc main_arg7)) (ix2 (n0 := 16) (n1 := 14) k q)
  rw [V_main_arg7]
  refine congrArg _ (funext fun a => Fin.ext ?_)
  obtain ⟨e0, e1⟩ := idx_w7 t
  match a with
  | ⟨0, _⟩ => show win0_7.index t (0 : Fin 2) * 16 + 1 * k.val = k.val; omega
  | ⟨1, _⟩ => show win0_7.index t (1 : Fin 2) * 14 + 1 * q.val = q.val; omega

/-- The array layer 4's bias window stages is the [14] bias reshaped to [1, 14] by the host before the launch. -/
theorem V_bias4 (c : Dev nD) :
    (V m c main_v3 : S1x14.Idx → EReal) = shapeCast S1x14 (m ((c : Thread nD τ).loc main_arg8)) shapeCasts_S14_S1x14 := by
  dsimp only [Gen.V, Gen.hostOps0]; after_results; rfl

/-- Row 0 of layer 4's bias block at any point is the bias vector. -/
theorem blk_b4 (c : Dev nD) (t : Fin cfg0.N) :
    row (n := 1) (K := 14) (iblk m c 8 t) 0 = vec (M := 14) (m ((c : Thread nD τ).loc main_arg8)) := by
  refine Eq.trans ?_ (row_shapeCast_vec (M := 14) (m ((c : Thread nD τ).loc main_arg8)) shapeCasts_S14_S1x14)
  funext q
  show V m c main_v3 (((cfg0.win 8).blk t).view.emb (ix2 (n0 := 1) (n1 := 14) 0 q))
    = shapeCast S1x14 (m ((c : Thread nD τ).loc main_arg8)) shapeCasts_S14_S1x14 (ix2 (n0 := 1) (n1 := 14) 0 q)
  rw [V_bias4]
  refine congrArg _ (funext fun a => Fin.ext ?_)
  obtain ⟨e0, e1⟩ := idx_w8 t
  match a with
  | ⟨0, _⟩ => show win0_8.index t (0 : Fin 2) * 1 + 1 * 0 = 0; omega
  | ⟨1, _⟩ => show win0_8.index t (1 : Fin 2) * 14 + 1 * q.val = q.val; omega

/-- Layer 5's weight block at any point is the whole weight array. -/
theorem blk_W5 (c : Dev nD) (t : Fin cfg0.N) :
    mat (K := 14) (M := 12) (iblk m c 9 t) = mat (K := 14) (M := 12) (m ((c : Thread nD τ).loc main_arg9)) := by
  funext k q
  show V m c main_arg9 (((cfg0.win 9).blk t).view.emb (ix2 (n0 := 14) (n1 := 12) k q)) = (m ((c : Thread nD τ).loc main_arg9)) (ix2 (n0 := 14) (n1 := 12) k q)
  rw [V_main_arg9]
  refine congrArg _ (funext fun a => Fin.ext ?_)
  obtain ⟨e0, e1⟩ := idx_w9 t
  match a with
  | ⟨0, _⟩ => show win0_9.index t (0 : Fin 2) * 14 + 1 * k.val = k.val; omega
  | ⟨1, _⟩ => show win0_9.index t (1 : Fin 2) * 12 + 1 * q.val = q.val; omega

/-- The array layer 5's bias window stages is the [12] bias reshaped to [1, 12] by the host before the launch. -/
theorem V_bias5 (c : Dev nD) :
    (V m c main_v4 : S1x12.Idx → EReal) = shapeCast S1x12 (m ((c : Thread nD τ).loc main_arg10)) shapeCasts_S12_S1x12 := by
  dsimp only [Gen.V, Gen.hostOps0]; after_results; rfl

/-- Row 0 of layer 5's bias block at any point is the bias vector. -/
theorem blk_b5 (c : Dev nD) (t : Fin cfg0.N) :
    row (n := 1) (K := 12) (iblk m c 10 t) 0 = vec (M := 12) (m ((c : Thread nD τ).loc main_arg10)) := by
  refine Eq.trans ?_ (row_shapeCast_vec (M := 12) (m ((c : Thread nD τ).loc main_arg10)) shapeCasts_S12_S1x12)
  funext q
  show V m c main_v4 (((cfg0.win 10).blk t).view.emb (ix2 (n0 := 1) (n1 := 12) 0 q))
    = shapeCast S1x12 (m ((c : Thread nD τ).loc main_arg10)) shapeCasts_S12_S1x12 (ix2 (n0 := 1) (n1 := 12) 0 q)
  rw [V_bias5]
  refine congrArg _ (funext fun a => Fin.ext ?_)
  obtain ⟨e0, e1⟩ := idx_w10 t
  match a with
  | ⟨0, _⟩ => show win0_10.index t (0 : Fin 2) * 1 + 1 * 0 = 0; omega
  | ⟨1, _⟩ => show win0_10.index t (1 : Fin 2) * 12 + 1 * q.val = q.val; omega

/-- Layer 6's weight block at any point is the whole weight array. -/
theorem blk_W6 (c : Dev nD) (t : Fin cfg0.N) :
    mat (K := 12) (M := 10) (iblk m c 11 t) = mat (K := 12) (M := 10) (m ((c : Thread nD τ).loc main_arg11)) := by
  funext k q
  show V m c main_arg11 (((cfg0.win 11).blk t).view.emb (ix2 (n0 := 12) (n1 := 10) k q)) = (m ((c : Thread nD τ).loc main_arg11)) (ix2 (n0 := 12) (n1 := 10) k q)
  rw [V_main_arg11]
  refine congrArg _ (funext fun a => Fin.ext ?_)
  obtain ⟨e0, e1⟩ := idx_w11 t
  match a with
  | ⟨0, _⟩ => show win0_11.index t (0 : Fin 2) * 12 + 1 * k.val = k.val; omega
  | ⟨1, _⟩ => show win0_11.index t (1 : Fin 2) * 10 + 1 * q.val = q.val; omega

/-- The array layer 6's bias window stages is the [10] bias reshaped to [1, 10] by the host before the launch. -/
theorem V_bias6 (c : Dev nD) :
    (V m c main_v5 : S1x10.Idx → EReal) = shapeCast S1x10 (m ((c : Thread nD τ).loc main_arg12)) shapeCasts_S10_S1x10 := by
  dsimp only [Gen.V, Gen.hostOps0]; after_results; rfl

/-- Row 0 of layer 6's bias block at any point is the bias vector. -/
theorem blk_b6 (c : Dev nD) (t : Fin cfg0.N) :
    row (n := 1) (K := 10) (iblk m c 12 t) 0 = vec (M := 10) (m ((c : Thread nD τ).loc main_arg12)) := by
  refine Eq.trans ?_ (row_shapeCast_vec (M := 10) (m ((c : Thread nD τ).loc main_arg12)) shapeCasts_S10_S1x10)
  funext q
  show V m c main_v5 (((cfg0.win 12).blk t).view.emb (ix2 (n0 := 1) (n1 := 10) 0 q))
    = shapeCast S1x10 (m ((c : Thread nD τ).loc main_arg12)) shapeCasts_S10_S1x10 (ix2 (n0 := 1) (n1 := 10) 0 q)
  rw [V_bias6]
  refine congrArg _ (funext fun a => Fin.ext ?_)
  obtain ⟨e0, e1⟩ := idx_w12 t
  match a with
  | ⟨0, _⟩ => show win0_12.index t (0 : Fin 2) * 1 + 1 * 0 = 0; omega
  | ⟨1, _⟩ => show win0_12.index t (1 : Fin 2) * 10 + 1 * q.val = q.val; omega

/-- Layer 7's weight block at any point is the whole weight array. -/
theorem blk_W7 (c : Dev nD) (t : Fin cfg0.N) :
    mat (K := 10) (M := 8) (iblk m c 13 t) = mat (K := 10) (M := 8) (m ((c : Thread nD τ).loc main_arg13)) := by
  funext k q
  show V m c main_arg13 (((cfg0.win 13).blk t).view.emb (ix2 (n0 := 10) (n1 := 8) k q)) = (m ((c : Thread nD τ).loc main_arg13)) (ix2 (n0 := 10) (n1 := 8) k q)
  rw [V_main_arg13]
  refine congrArg _ (funext fun a => Fin.ext ?_)
  obtain ⟨e0, e1⟩ := idx_w13 t
  match a with
  | ⟨0, _⟩ => show win0_13.index t (0 : Fin 2) * 10 + 1 * k.val = k.val; omega
  | ⟨1, _⟩ => show win0_13.index t (1 : Fin 2) * 8 + 1 * q.val = q.val; omega

/-- The array layer 7's bias window stages is the [8] bias reshaped to [1, 8] by the host before the launch. -/
theorem V_bias7 (c : Dev nD) :
    (V m c main_v6 : S1x8.Idx → EReal) = shapeCast S1x8 (m ((c : Thread nD τ).loc main_arg14)) shapeCasts_S8_S1x8 := by
  dsimp only [Gen.V, Gen.hostOps0]; after_results; rfl

/-- Row 0 of layer 7's bias block at any point is the bias vector. -/
theorem blk_b7 (c : Dev nD) (t : Fin cfg0.N) :
    row (n := 1) (K := 8) (iblk m c 14 t) 0 = vec (M := 8) (m ((c : Thread nD τ).loc main_arg14)) := by
  refine Eq.trans ?_ (row_shapeCast_vec (M := 8) (m ((c : Thread nD τ).loc main_arg14)) shapeCasts_S8_S1x8)
  funext q
  show V m c main_v6 (((cfg0.win 14).blk t).view.emb (ix2 (n0 := 1) (n1 := 8) 0 q))
    = shapeCast S1x8 (m ((c : Thread nD τ).loc main_arg14)) shapeCasts_S8_S1x8 (ix2 (n0 := 1) (n1 := 8) 0 q)
  rw [V_bias7]
  refine congrArg _ (funext fun a => Fin.ext ?_)
  obtain ⟨e0, e1⟩ := idx_w14 t
  match a with
  | ⟨0, _⟩ => show win0_14.index t (0 : Fin 2) * 1 + 1 * 0 = 0; omega
  | ⟨1, _⟩ => show win0_14.index t (1 : Fin 2) * 8 + 1 * q.val = q.val; omega

/-- Layer 8's weight block at any point is the whole weight array. -/
theorem blk_W8 (c : Dev nD) (t : Fin cfg0.N) :
    mat (K := 8) (M := 6) (iblk m c 15 t) = mat (K := 8) (M := 6) (m ((c : Thread nD τ).loc main_arg15)) := by
  funext k q
  show V m c main_arg15 (((cfg0.win 15).blk t).view.emb (ix2 (n0 := 8) (n1 := 6) k q)) = (m ((c : Thread nD τ).loc main_arg15)) (ix2 (n0 := 8) (n1 := 6) k q)
  rw [V_main_arg15]
  refine congrArg _ (funext fun a => Fin.ext ?_)
  obtain ⟨e0, e1⟩ := idx_w15 t
  match a with
  | ⟨0, _⟩ => show win0_15.index t (0 : Fin 2) * 8 + 1 * k.val = k.val; omega
  | ⟨1, _⟩ => show win0_15.index t (1 : Fin 2) * 6 + 1 * q.val = q.val; omega

/-- The array layer 8's bias window stages is the [6] bias reshaped to [1, 6] by the host before the launch. -/
theorem V_bias8 (c : Dev nD) :
    (V m c main_v7 : S1x6.Idx → EReal) = shapeCast S1x6 (m ((c : Thread nD τ).loc main_arg16)) shapeCasts_S6_S1x6 := by
  dsimp only [Gen.V, Gen.hostOps0]; after_results; rfl

/-- Row 0 of layer 8's bias block at any point is the bias vector. -/
theorem blk_b8 (c : Dev nD) (t : Fin cfg0.N) :
    row (n := 1) (K := 6) (iblk m c 16 t) 0 = vec (M := 6) (m ((c : Thread nD τ).loc main_arg16)) := by
  refine Eq.trans ?_ (row_shapeCast_vec (M := 6) (m ((c : Thread nD τ).loc main_arg16)) shapeCasts_S6_S1x6)
  funext q
  show V m c main_v7 (((cfg0.win 16).blk t).view.emb (ix2 (n0 := 1) (n1 := 6) 0 q))
    = shapeCast S1x6 (m ((c : Thread nD τ).loc main_arg16)) shapeCasts_S6_S1x6 (ix2 (n0 := 1) (n1 := 6) 0 q)
  rw [V_bias8]
  refine congrArg _ (funext fun a => Fin.ext ?_)
  obtain ⟨e0, e1⟩ := idx_w16 t
  match a with
  | ⟨0, _⟩ => show win0_16.index t (0 : Fin 2) * 1 + 1 * 0 = 0; omega
  | ⟨1, _⟩ => show win0_16.index t (1 : Fin 2) * 6 + 1 * q.val = q.val; omega

/-- Layer 9's weight block at any point is the whole weight array. -/
theorem blk_W9 (c : Dev nD) (t : Fin cfg0.N) :
    mat (K := 6) (M := 4) (iblk m c 17 t) = mat (K := 6) (M := 4) (m ((c : Thread nD τ).loc main_arg17)) := by
  funext k q
  show V m c main_arg17 (((cfg0.win 17).blk t).view.emb (ix2 (n0 := 6) (n1 := 4) k q)) = (m ((c : Thread nD τ).loc main_arg17)) (ix2 (n0 := 6) (n1 := 4) k q)
  rw [V_main_arg17]
  refine congrArg _ (funext fun a => Fin.ext ?_)
  obtain ⟨e0, e1⟩ := idx_w17 t
  match a with
  | ⟨0, _⟩ => show win0_17.index t (0 : Fin 2) * 6 + 1 * k.val = k.val; omega
  | ⟨1, _⟩ => show win0_17.index t (1 : Fin 2) * 4 + 1 * q.val = q.val; omega

/-- The array layer 9's bias window stages is the [4] bias reshaped to [1, 4] by the host before the launch. -/
theorem V_bias9 (c : Dev nD) :
    (V m c main_v8 : S1x4.Idx → EReal) = shapeCast S1x4 (m ((c : Thread nD τ).loc main_arg18)) shapeCasts_S4_S1x4 := by
  dsimp only [Gen.V, Gen.hostOps0]; after_results; rfl

/-- Row 0 of layer 9's bias block at any point is the bias vector. -/
theorem blk_b9 (c : Dev nD) (t : Fin cfg0.N) :
    row (n := 1) (K := 4) (iblk m c 18 t) 0 = vec (M := 4) (m ((c : Thread nD τ).loc main_arg18)) := by
  refine Eq.trans ?_ (row_shapeCast_vec (M := 4) (m ((c : Thread nD τ).loc main_arg18)) shapeCasts_S4_S1x4)
  funext q
  show V m c main_v8 (((cfg0.win 18).blk t).view.emb (ix2 (n0 := 1) (n1 := 4) 0 q))
    = shapeCast S1x4 (m ((c : Thread nD τ).loc main_arg18)) shapeCasts_S4_S1x4 (ix2 (n0 := 1) (n1 := 4) 0 q)
  rw [V_bias9]
  refine congrArg _ (funext fun a => Fin.ext ?_)
  obtain ⟨e0, e1⟩ := idx_w18 t
  match a with
  | ⟨0, _⟩ => show win0_18.index t (0 : Fin 2) * 1 + 1 * 0 = 0; omega
  | ⟨1, _⟩ => show win0_18.index t (1 : Fin 2) * 4 + 1 * q.val = q.val; omega

/-- Layer 10's weight block at any point is the whole weight array. -/
theorem blk_W10 (c : Dev nD) (t : Fin cfg0.N) :
    mat (K := 4) (M := 1) (iblk m c 19 t) = mat (K := 4) (M := 1) (m ((c : Thread nD τ).loc main_arg19)) := by
  funext k q
  show V m c main_arg19 (((cfg0.win 19).blk t).view.emb (ix2 (n0 := 4) (n1 := 1) k q)) = (m ((c : Thread nD τ).loc main_arg19)) (ix2 (n0 := 4) (n1 := 1) k q)
  rw [V_main_arg19]
  refine congrArg _ (funext fun a => Fin.ext ?_)
  obtain ⟨e0, e1⟩ := idx_w19 t
  match a with
  | ⟨0, _⟩ => show win0_19.index t (0 : Fin 2) * 4 + 1 * k.val = k.val; omega
  | ⟨1, _⟩ => show win0_19.index t (1 : Fin 2) * 1 + 1 * q.val = q.val; omega

/-- The array layer 10's bias window stages is the [1] bias reshaped to [1, 1] by the host before the launch. -/
theorem V_bias10 (c : Dev nD) :
    (V m c main_v9 : S1x1.Idx → EReal) = shapeCast S1x1 (m ((c : Thread nD τ).loc main_arg20)) shapeCasts_S1_S1x1 := by
  dsimp only [Gen.V, Gen.hostOps0]; after_results; rfl

/-- Row 0 of layer 10's bias block at any point is the bias vector. -/
theorem blk_b10 (c : Dev nD) (t : Fin cfg0.N) :
    row (n := 1) (K := 1) (iblk m c 20 t) 0 = vec (M := 1) (m ((c : Thread nD τ).loc main_arg20)) := by
  refine Eq.trans ?_ (row_shapeCast_vec (M := 1) (m ((c : Thread nD τ).loc main_arg20)) shapeCasts_S1_S1x1)
  funext q
  show V m c main_v9 (((cfg0.win 20).blk t).view.emb (ix2 (n0 := 1) (n1 := 1) 0 q))
    = shapeCast S1x1 (m ((c : Thread nD τ).loc main_arg20)) shapeCasts_S1_S1x1 (ix2 (n0 := 1) (n1 := 1) 0 q)
  rw [V_bias10]
  refine congrArg _ (funext fun a => Fin.ext ?_)
  obtain ⟨e0, e1⟩ := idx_w20 t
  match a with
  | ⟨0, _⟩ => show win0_20.index t (0 : Fin 2) * 1 + 1 * 0 = 0; omega
  | ⟨1, _⟩ => show win0_20.index t (1 : Fin 2) * 1 + 1 * q.val = q.val; omega

/-! ## What a grid point writes back -/

/-- The result array as the network of the argument arrays, as launched. -/
abbrev result (c : Dev nD) : S1048576x1.Idx → EReal :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))

/-- Point t writes back block t of `result`. -/
theorem flushed_eq (c : Dev nD) (t : Fin cfg0.N) :
    (dats m 0 c).flushed 21 t = ((cfg0.win 21).blk t).view.read (Elt Ideal) (result m c) := by
  rw [Value.flushed21]
  unfold out0_21
  rw [View.canon_unit_zero zero_offsets]
  simp only [View.ld_unit_zero (S := S8192x8) zero_offsets,
    View.ld_unit_zero (S := S8x20) zero_offsets,
    View.ld_unit_zero (S := S1x20) zero_offsets,
    View.ld_unit_zero (S := S20x18) zero_offsets,
    View.ld_unit_zero (S := S1x18) zero_offsets,
    View.ld_unit_zero (S := S18x16) zero_offsets,
    View.ld_unit_zero (S := S1x16) zero_offsets,
    View.ld_unit_zero (S := S16x14) zero_offsets,
    View.ld_unit_zero (S := S1x14) zero_offsets,
    View.ld_unit_zero (S := S14x12) zero_offsets,
    View.ld_unit_zero (S := S1x12) zero_offsets,
    View.ld_unit_zero (S := S12x10) zero_offsets,
    View.ld_unit_zero (S := S1x10) zero_offsets,
    View.ld_unit_zero (S := S10x8) zero_offsets,
    View.ld_unit_zero (S := S1x8) zero_offsets,
    View.ld_unit_zero (S := S8x6) zero_offsets,
    View.ld_unit_zero (S := S1x6) zero_offsets,
    View.ld_unit_zero (S := S6x4) zero_offsets,
    View.ld_unit_zero (S := S1x4) zero_offsets,
    View.ld_unit_zero (S := S4x1) zero_offsets,
    View.ld_unit_zero (S := S1x1) zero_offsets]
  funext j
  obtain ⟨p, q, rfl⟩ : ∃ (p : Fin 8192) (q : Fin 1), j = ix2 (n0 := 8192) (n1 := 1) p q := ⟨j 0, j 1, eq_ix2 (n0 := 8192) (n1 := 1) j⟩
  obtain rfl : q = 0 := Subsingleton.elim q 0
  refine (payload_row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) p).trans ?_
  show net (row (n := 8192) (K := 8) (iblk m c 0 t) p)
      (mat (K := 8) (M := 20) (iblk m c 1 t)) (row (n := 1) (K := 20) (iblk m c 2 t) 0)
      (mat (K := 20) (M := 18) (iblk m c 3 t)) (row (n := 1) (K := 18) (iblk m c 4 t) 0)
      (mat (K := 18) (M := 16) (iblk m c 5 t)) (row (n := 1) (K := 16) (iblk m c 6 t) 0)
      (mat (K := 16) (M := 14) (iblk m c 7 t)) (row (n := 1) (K := 14) (iblk m c 8 t) 0)
      (mat (K := 14) (M := 12) (iblk m c 9 t)) (row (n := 1) (K := 12) (iblk m c 10 t) 0)
      (mat (K := 12) (M := 10) (iblk m c 11 t)) (row (n := 1) (K := 10) (iblk m c 12 t) 0)
      (mat (K := 10) (M := 8) (iblk m c 13 t)) (row (n := 1) (K := 8) (iblk m c 14 t) 0)
      (mat (K := 8) (M := 6) (iblk m c 15 t)) (row (n := 1) (K := 6) (iblk m c 16 t) 0)
      (mat (K := 6) (M := 4) (iblk m c 17 t)) (row (n := 1) (K := 4) (iblk m c 18 t) 0)
      (mat (K := 4) (M := 1) (iblk m c 19 t)) (row (n := 1) (K := 1) (iblk m c 20 t) 0)
    = net (row (n := 1048576) (K := 8) (m ((c : Thread nD τ).loc main_arg0)) ((((cfg0.win 21).blk t).view.emb (ix2 (n0 := 8192) (n1 := 1) p 0)) 0))
      (mat (K := 8) (M := 20) (m ((c : Thread nD τ).loc main_arg1))) (vec (M := 20) (m ((c : Thread nD τ).loc main_arg2)))
      (mat (K := 20) (M := 18) (m ((c : Thread nD τ).loc main_arg3))) (vec (M := 18) (m ((c : Thread nD τ).loc main_arg4)))
      (mat (K := 18) (M := 16) (m ((c : Thread nD τ).loc main_arg5))) (vec (M := 16) (m ((c : Thread nD τ).loc main_arg6)))
      (mat (K := 16) (M := 14) (m ((c : Thread nD τ).loc main_arg7))) (vec (M := 14) (m ((c : Thread nD τ).loc main_arg8)))
      (mat (K := 14) (M := 12) (m ((c : Thread nD τ).loc main_arg9))) (vec (M := 12) (m ((c : Thread nD τ).loc main_arg10)))
      (mat (K := 12) (M := 10) (m ((c : Thread nD τ).loc main_arg11))) (vec (M := 10) (m ((c : Thread nD τ).loc main_arg12)))
      (mat (K := 10) (M := 8) (m ((c : Thread nD τ).loc main_arg13))) (vec (M := 8) (m ((c : Thread nD τ).loc main_arg14)))
      (mat (K := 8) (M := 6) (m ((c : Thread nD τ).loc main_arg15))) (vec (M := 6) (m ((c : Thread nD τ).loc main_arg16)))
      (mat (K := 6) (M := 4) (m ((c : Thread nD τ).loc main_arg17))) (vec (M := 4) (m ((c : Thread nD τ).loc main_arg18)))
      (mat (K := 4) (M := 1) (m ((c : Thread nD τ).loc main_arg19))) (vec (M := 1) (m ((c : Thread nD τ).loc main_arg20)))
  rw [blk_x m c t p, blk_W1 m c t, blk_b1 m c t, blk_W2 m c t, blk_b2 m c t, blk_W3 m c t, blk_b3 m c t, blk_W4 m c t, blk_b4 m c t, blk_W5 m c t, blk_b5 m c t, blk_W6 m c t, blk_b6 m c t, blk_W7 m c t, blk_b7 m c t, blk_W8 m c t, blk_b8 m c t, blk_W9 m c t, blk_b9 m c t, blk_W10 m c t, blk_b10 m c t]

/-! ## The blocks tile the result array -/

/-- An index of the result array is in point t's block iff each coordinate is in the block's range on its axis. -/
theorem mem_blk (t : Fin cfg0.N) (i : S1048576x1.Idx) :
    i ∈ ((cfg0.win 21).blk t).view.set ↔ ∀ a : Fin 2, win0_21.index t a * S8192x1.size a ≤ (i a).val ∧ (i a).val < win0_21.index t a * S8192x1.size a + S8192x1.size a := by
  show i ∈ ((View.whole main_v10).slice (win0_21.rect t)).set ↔ _
  rw [View.set_slice_whole, Rect.mem_set_unit]
  exact Iff.rfl

/-- Every row block is some grid point's. -/
theorem idx_onto : ∀ q : Fin 128, ∃ t : Fin cfg0.N, win0_21.index t = ![q.val, 0] :=
  (by decide +kernel : ∀ q : Fin 128, ∃ t : Fin grid0.N, win0_21.index t = ![q.val, 0])

/-- Row r of the result array is in the block of the point whose row block is r / 8192. -/
theorem cover (i : S1048576x1.Idx) : ∃ t : Fin cfg0.N, (cfg0.win 21).flush t = true ∧ i ∈ ((cfg0.win 21).blk t).view.set := by
  have hi0 : (i 0).val < 1048576 := (i 0).isLt
  have hi1 : (i 1).val < 1 := (i 1).isLt
  obtain ⟨t, ht⟩ := idx_onto ⟨(i 0).val / 8192, by omega⟩
  have q0 : win0_21.index t (0 : Fin 2) = (i 0).val / 8192 := congrFun ht 0
  have q1 : win0_21.index t (1 : Fin 2) = 0 := congrFun ht 1
  refine ⟨t, flush0_21 t, ?_⟩
  rw [mem_blk]
  intro a
  match a with
  | ⟨0, _⟩ => show win0_21.index t (0 : Fin 2) * 8192 ≤ (i 0).val ∧ (i 0).val < win0_21.index t (0 : Fin 2) * 8192 + 8192; omega
  | ⟨1, _⟩ => show win0_21.index t (1 : Fin 2) * 1 ≤ (i 1).val ∧ (i 1).val < win0_21.index t (1 : Fin 2) * 1 + 1; omega

/-- After the run the result array is the network of the arguments, row by row. -/
theorem final (c : Dev nD) : (dats m 0 c).arrAt 21 cfg0.N = result m c :=
  (dats m 0 c).arrAt_eq_of_cover 21 (result m c) (fun t _ => flushed_eq m c t) cover

/-! ## The run, read -/

/-- Every weakly fair execution of the kernel's program ends with the result array at the network of the argument
    arrays and the arguments unchanged. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20) :=
  (θ_run defs _ _).mono (fun r h c => ⟨(h c).1.trans (final m c), (h c).2⟩) (Value.run_blocks m ρ)

end Cert.KernelIdeal.KValue

end
-- ==== Proof.lean ====
/-
  A ten-layer perceptron over 1048576 input rows of 8 features, as a tiled TPU kernel and as plain jnp.

  Both programs compute, for every input row x, the same number: nine times "multiply by a weight matrix, add a
  bias, clamp at zero" through widths 8 → 20 → 18 → 16 → 14 → 12 → 10 → 8 → 6 → 4, then one more affine map into a
  single entry z and the logistic function 1 / (1 + e^(-z)). The kernel does it block by block — 128 grid points,
  8192 rows each, the weights resident, activations and weights narrowed to bf16 before each matrix-unit product;
  the reference does it on the whole array with dot_general, and spells the logistic function with a negation, an
  exponential, an addition and a division. Over the extended reals a change of float format is the identity, a
  matrix-unit product into a zero accumulator and a dot_general are the same sum of products in the same order, and
  the logistic function IS 1 / (1 + e^(-z)) on every extended real, the infinities included. So the two results agree
  entry by entry with no use of finiteness: the precondition is never opened.

  The three frames are the generated ones (the reference's is its generated run with the result dropped); the
  idealization rewrote nothing, so `preserves` is trivial. `algebraic`: the kernel's run ends with the result array at
  the network of the argument arrays (KernelValue), the reference's run ends at a term that is the same function
  (RefValue), and the two programs' arguments agree.
-/
import proofs.«140085_j55508157334216_1_alg».proof.Defs
import proofs.«140085_j55508157334216_1_alg».proof.Proof.Gen.Kernel
import proofs.«140085_j55508157334216_1_alg».proof.Proof.Gen.Kernel.Skeleton
import proofs.«140085_j55508157334216_1_alg».proof.Proof.Gen.Kernel.Launch
import proofs.«140085_j55508157334216_1_alg».proof.Proof.Gen.Kernel.Points
import proofs.«140085_j55508157334216_1_alg».proof.Proof.Gen.Kernel.Frame
import proofs.«140085_j55508157334216_1_alg».proof.Proof.Gen.KernelIdeal
import proofs.«140085_j55508157334216_1_alg».proof.Proof.Gen.KernelIdeal.Skeleton
import proofs.«140085_j55508157334216_1_alg».proof.Proof.Gen.KernelIdeal.Launch
import proofs.«140085_j55508157334216_1_alg».proof.Proof.Gen.KernelIdeal.Points
import proofs.«140085_j55508157334216_1_alg».proof.Proof.Gen.KernelIdeal.Frame
import proofs.«140085_j55508157334216_1_alg».proof.Proof.Gen.ReferenceIdeal
import proofs.«140085_j55508157334216_1_alg».proof.Proof.Gen.Pre_finite_inputs
import proofs.«140085_j55508157334216_1_alg».proof.Proof.Gen.KernelIdeal.Value
import proofs.«140085_j55508157334216_1_alg».proof.Proof.Gen.ReferenceIdeal.Run
import proofs.«140085_j55508157334216_1_alg».proof.Proof.Gen.ReferenceIdeal.Read
import proofs.«140085_j55508157334216_1_alg».proof.Proof.RefValue
import proofs.«140085_j55508157334216_1_alg».proof.Proof.KernelValue
import Idealize.ShloMosaic.Adequacy
import Idealize.ShloMosaic.Init

noncomputable section

namespace Cert.Proof

open Idealize.ShloMosaic Idealize.SL.Sem Cert.Kernel

/-- The word-level kernel terminates, faults nowhere and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Idealizing the kernel rewrote no operation, so there is nothing to preserve. -/
theorem preserves : Cert.preserves_Kernel_KernelIdeal := trivial

/-- From memories that agree on the 21 arguments, both programs end with the result array at the network applied
    to each row of the input, and with their arguments unchanged. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefValue.ref_is_net
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14))
      (m' ((c.tc : Thread Cert.ReferenceIdeal.nD Cert.ReferenceIdeal.τ).loc Cert.ReferenceIdeal.main_arg15))
      (m' ((c.tc : Thread Cert.ReferenceIdeal.nD Cert.ReferenceIdeal.τ).loc Cert.ReferenceIdeal.main_arg16))
      (m' ((c.tc : Thread Cert.ReferenceIdeal.nD Cert.ReferenceIdeal.τ).loc Cert.ReferenceIdeal.main_arg17))
      (m' ((c.tc : Thread Cert.ReferenceIdeal.nD Cert.ReferenceIdeal.τ).loc Cert.ReferenceIdeal.main_arg18))
      (m' ((c.tc : Thread Cert.ReferenceIdeal.nD Cert.ReferenceIdeal.τ).loc Cert.ReferenceIdeal.main_arg19))
      (m' ((c.tc : Thread Cert.ReferenceIdeal.nD Cert.ReferenceIdeal.τ).loc Cert.ReferenceIdeal.main_arg20))).trans ?_
  obtain ⟨h0, h1, h2, h3, h4, h5, h6, h7, h8, h9, h10, h11, h12, h13, h14, h15, h16, h17, h18, h19, h20⟩ := hagree c
  rw [h0, h1, h2, h3, h4, h5, h6, h7, h8, h9, h10, h11, h12, h13, h14, h15, h16, h17, h18, h19, h20]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
